-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8000000x4 : Shape := ⟨2, ![8000000, 4]⟩
abbrev S8000000x3 : Shape := ⟨2, ![8000000, 3]⟩
abbrev S_ : Shape := ⟨0, ![]⟩
abbrev S8000000 : Shape := ⟨1, ![8000000]⟩

class Facts : Prop where
  bcast_S_S8000000x4 : S_.BroadcastsInDim S8000000x4 (![] : Fin 0 → Fin S8000000x4.rank)
  reducesTo_S8000000x4_S_d0_1 : S8000000x4.ReducesTo [0, 1] S_
  h_S_ : 0 < S_.numel
  bcast_S_S8000000x3 : S_.BroadcastsInDim S8000000x3 (![] : Fin 0 → Fin S8000000x3.rank)
  reducesTo_S8000000x3_S_d0_1 : S8000000x3.ReducesTo [0, 1] S_
  reducesTo_S8000000x4_S8000000_d1 : S8000000x4.ReducesTo [1] S8000000
  bcast_S_S8000000 : S_.BroadcastsInDim S8000000 (![] : Fin 0 → Fin S8000000.rank)
  reducesTo_S8000000_S_d0 : S8000000.ReducesTo [0] S_

variable [Facts]

def fn {F : FTy → Type} [FloatOps F] (main_arg0 : FVec F S8000000x4 .f32) (main_arg1 : FVec F S8000000x3 .f32) : IVec S_ 1 :=
  let main_v0 : FVec F S8000000x4 .f32 := Host.absf main_arg0
  let main_cst : FVec F S_ .f32 := constant S_ .f32 0x7F800000#32
  let main_v1 : FVec F S8000000x4 .f32 := broadcastInDim S8000000x4 ![] bcast_S_S8000000x4 main_cst
  let main_v2 : IVec S8000000x4 1 := cmpf .olt main_v0 main_v1
  let main_c : IVec S_ 1 := constantI S_ 1 1#1
  let main_v3 : IVec S_ 1 := (fun x v => Host.reduce IntOp.andi x v reducesTo_S8000000x4_S_d0_1 h_S_) main_v2 main_c
  let main_v4 : FVec F S8000000x3 .f32 := Host.absf main_arg1
  let main_cst_0 : FVec F S_ .f32 := constant S_ .f32 0x7F800000#32
  let main_v5 : FVec F S8000000x3 .f32 := broadcastInDim S8000000x3 ![] bcast_S_S8000000x3 main_cst_0
  let main_v6 : IVec S8000000x3 1 := cmpf .olt main_v4 main_v5
  let main_c_1 : IVec S_ 1 := constantI S_ 1 1#1
  let main_v7 : IVec S_ 1 := (fun x v => Host.reduce IntOp.andi x v reducesTo_S8000000x3_S_d0_1 h_S_) main_v6 main_c_1
  let main_v8 : IVec S_ 1 := andi main_v3 main_v7
  let main_v9 : FVec F S8000000x4 .f32 := mulf main_arg0 main_arg0
  let main_cst_2 : FVec F S_ .f32 := constant S_ .f32 0x00000000#32
  let main_v10 : FVec F S8000000 .f32 := (fun x v => Host.reduceAdd x v reducesTo_S8000000x4_S8000000_d1 h_S_) main_v9 main_cst_2
  let main_cst_3 : FVec F S_ .f32 := constant S_ .f32 0x00000000#32
  let main_v11 : FVec F S8000000 .f32 := broadcastInDim S8000000 ![] bcast_S_S8000000 main_cst_3
  let main_v12 : IVec S8000000 1 := cmpf .ogt main_v10 main_v11
  let main_c_4 : IVec S_ 1 := constantI S_ 1 1#1
  let main_v13 : IVec S_ 1 := (fun x v => Host.reduce IntOp.andi x v reducesTo_S8000000_S_d0 h_S_) main_v12 main_c_4
  let main_v14 : IVec S_ 1 := andi main_v8 main_v13
  main_v14
-- ==== Kernel.lean ====
abbrev S8000000x4 : Shape := ⟨2, ![8000000, 4]⟩
abbrev S8000000x3 : Shape := ⟨2, ![8000000, 3]⟩
abbrev S8000000x9 : Shape := ⟨2, ![8000000, 9]⟩
abbrev S8000000x3x3 : Shape := ⟨3, ![8000000, 3, 3]⟩
abbrev S2000x4 : Shape := ⟨2, ![2000, 4]⟩
abbrev S2000x3 : Shape := ⟨2, ![2000, 3]⟩
abbrev S2000x9 : Shape := ⟨2, ![2000, 9]⟩
abbrev S2000 : Shape := ⟨1, ![2000]⟩
abbrev S2000x1 : Shape := ⟨2, ![2000, 1]⟩

abbrev nBuf : Space → Nat
  | .hbm => 4
  | .vmem => 6
  | .smem => 0
  | _ => 0

abbrev bufTy : (tb : Table) → Fin (tcTables nBuf tb) → BufTy
  | .hbm, ⟨0, _⟩ => ⟨S8000000x4, .f32⟩
  | .hbm, ⟨1, _⟩ => ⟨S8000000x3, .f32⟩
  | .hbm, ⟨2, _⟩ => ⟨S8000000x9, .f32⟩
  | .hbm, ⟨3, _⟩ => ⟨S8000000x3x3, .f32⟩
  | .local _ .vmem, ⟨0, _⟩ => ⟨S2000x4, .f32⟩
  | .local _ .vmem, ⟨1, _⟩ => ⟨S2000x4, .f32⟩
  | .local _ .vmem, ⟨2, _⟩ => ⟨S2000x3, .f32⟩
  | .local _ .vmem, ⟨3, _⟩ => ⟨S2000x3, .f32⟩
  | .local _ .vmem, ⟨4, _⟩ => ⟨S2000x9, .f32⟩
  | .local _ .vmem, ⟨5, _⟩ => ⟨S2000x9, .f32⟩
  | _, _ => ⟨S8000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4000], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x9 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8000000x9_S8000000x3x3 : S8000000x9.ShapeCasts S8000000x3x3
  inb_S2000x4_S2000x4_0_0 : ∀ a, (![0, 0] : Fin 2 → Nat) a + S2000x4.size a ≤ S2000x4.size a
  h_S2000x4 : 0 < S2000x4.numel
  reduces_S2000x4_S2000 : S2000x4.Reduces [1] S2000
  shapeCasts_S2000_S2000x1 : S2000.ShapeCasts S2000x1
  broadcasts_S2000x1_S2000x4 : S2000x1.Broadcasts S2000x4
  slices_S2000x4_o0_0_S2000x1 : S2000x4.Slices ![0, 0] S2000x1
  slices_S2000x4_o0_1_S2000x1 : S2000x4.Slices ![0, 1] S2000x1
  slices_S2000x4_o0_2_S2000x1 : S2000x4.Slices ![0, 2] S2000x1
  slices_S2000x4_o0_3_S2000x1 : S2000x4.Slices ![0, 3] S2000x1
  inb_S2000x3_S2000x3_0_0 : ∀ a, (![0, 0] : Fin 2 → Nat) a + S2000x3.size a ≤ S2000x3.size a
  h_S2000x3 : 0 < S2000x3.numel
  slices_S2000x3_o0_0_S2000x1 : S2000x3.Slices ![0, 0] S2000x1
  slices_S2000x3_o0_1_S2000x1 : S2000x3.Slices ![0, 1] S2000x1
  slices_S2000x3_o0_2_S2000x1 : S2000x3.Slices ![0, 2] S2000x1
  concatenates_S2000x1_S2000x1_S2000x1_S2000x1_S2000x1_S2000x1_S2000x1_S2000x1_S2000x1_S2000x9_d1 : Shape.Concatenates [S2000x1, S2000x1, S2000x1, S2000x1, S2000x1, S2000x1, S2000x1, S2000x1, S2000x1] S2000x9 1
  inb_S2000x9_S2000x9_0_0 : ∀ a, (![0, 0] : Fin 2 → Nat) a + S2000x9.size a ≤ S2000x9.size a
  h_S2000x9 : 0 < S2000x9.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x4.size a ≤ S8000000x4.size a
  hwx0_0 : ∀ i : grid0.Coords, EltTy.bits .f32 = 32 ∨ (Rect.block (s := S8000000x4) S2000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x3.size a ≤ S8000000x3.size a
  hwx0_1 : ∀ i : grid0.Coords, EltTy.bits .f32 = 32 ∨ (Rect.block (s := S8000000x3) S2000x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x9.size a ≤ S8000000x9.size a
  hwx0_2 : ∀ i : grid0.Coords, EltTy.bits .f32 = 32 ∨ (Rect.block (s := S8000000x9) S2000x9.size (cc0_transform_2 i) (hinb0_2 i)).WholeWords (EltTy.packing .f32)

variable [Facts₀]

abbrev win0_0 : Pipeline.Window sig grid0 :=
  Pipeline.Window.ofSpec (Memref.whole main_arg0) S2000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S2000x9.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8000000x4 : Shape := ⟨2, ![8000000, 4]⟩
abbrev S8000000x3 : Shape := ⟨2, ![8000000, 3]⟩
abbrev S_ : Shape := ⟨0, ![]⟩
abbrev S8000000 : Shape := ⟨1, ![8000000]⟩
abbrev S8000000x1 : Shape := ⟨2, ![8000000, 1]⟩
abbrev S8000000x9 : Shape := ⟨2, ![8000000, 9]⟩
abbrev S8000000x3x3 : Shape := ⟨3, ![8000000, 3, 3]⟩
abbrev S8000000x1x3 : Shape := ⟨3, ![8000000, 1, 3]⟩

abbrev nBuf : Space → Nat
  | .hbm => 95
  | .vmem => 0
  | .smem => 0
  | _ => 0

abbrev bufTy : (tb : Table) → Fin (tcTables nBuf tb) → BufTy
  | .hbm, ⟨0, _⟩ => ⟨S8000000x4, .f32⟩
  | .hbm, ⟨1, _⟩ => ⟨S8000000x3, .f32⟩
  | .hbm, ⟨2, _⟩ => ⟨S8000000x4, .f32⟩
  | .hbm, ⟨3, _⟩ => ⟨S_, .f32⟩
  | .hbm, ⟨4, _⟩ => ⟨S8000000, .f32⟩
  | .hbm, ⟨5, _⟩ => ⟨S8000000x1, .f32⟩
  | .hbm, ⟨6, _⟩ => ⟨S8000000x1, .f32⟩
  | .hbm, ⟨7, _⟩ => ⟨S8000000x4, .f32⟩
  | .hbm, ⟨8, _⟩ => ⟨S8000000x4, .f32⟩
  | .hbm, ⟨9, _⟩ => ⟨S8000000x1, .f32⟩
  | .hbm, ⟨10, _⟩ => ⟨S8000000, .f32⟩
  | .hbm, ⟨11, _⟩ => ⟨S8000000x1, .f32⟩
  | .hbm, ⟨12, _⟩ => ⟨S8000000, .f32⟩
  | .hbm, ⟨13, _⟩ => ⟨S8000000x1, .f32⟩
  | .hbm, ⟨14, _⟩ => ⟨S8000000, .f32⟩
  | .hbm, ⟨15, _⟩ => ⟨S8000000x1, .f32⟩
  | .hbm, ⟨16, _⟩ => ⟨S8000000, .f32⟩
  | .hbm, ⟨17, _⟩ => ⟨S8000000, .f32⟩
  | .hbm, ⟨18, _⟩ => ⟨S8000000, .f32⟩
  | .hbm, ⟨19, _⟩ => ⟨S8000000, .f32⟩
  | .hbm, ⟨20, _⟩ => ⟨S_, .f32⟩
  | .hbm, ⟨21, _⟩ => ⟨S8000000, .f32⟩
  | .hbm, ⟨22, _⟩ => ⟨S8000000, .f32⟩
  | .hbm, ⟨23, _⟩ => ⟨S_, .f32⟩
  | .hbm, ⟨24, _⟩ => ⟨S8000000, .f32⟩
  | .hbm, ⟨25, _⟩ => ⟨S8000000, .f32⟩
  | .hbm, ⟨26, _⟩ => ⟨S8000000, .f32⟩
  | .hbm, ⟨27, _⟩ => ⟨S8000000, .f32⟩
  | .hbm, ⟨28, _⟩ => ⟨S8000000, .f32⟩
  | .hbm, ⟨29, _⟩ => ⟨S_, .f32⟩
  | .hbm, ⟨30, _⟩ => ⟨S8000000, .f32⟩
  | .hbm, ⟨31, _⟩ => ⟨S8000000, .f32⟩
  | .hbm, ⟨32, _⟩ => ⟨S8000000, .f32⟩
  | .hbm, ⟨33, _⟩ => ⟨S8000000, .f32⟩
  | .hbm, ⟨34, _⟩ => ⟨S8000000, .f32⟩
  | .hbm, ⟨35, _⟩ => ⟨S_, .f32⟩
  | .hbm, ⟨36, _⟩ => ⟨S8000000, .f32⟩
  | .hbm, ⟨37, _⟩ => ⟨S8000000, .f32⟩
  | .hbm, ⟨38, _⟩ => ⟨S8000000, .f32⟩
  | .hbm, ⟨39, _⟩ => ⟨S8000000, .f32⟩
  | .hbm, ⟨40, _⟩ => ⟨S8000000, .f32⟩
  | .hbm, ⟨41, _⟩ => ⟨S_, .f32⟩
  | .hbm, ⟨42, _⟩ => ⟨S8000000, .f32⟩
  | .hbm, ⟨43, _⟩ => ⟨S8000000, .f32⟩
  | .hbm, ⟨44, _⟩ => ⟨S8000000, .f32⟩
  | .hbm, ⟨45, _⟩ => ⟨S8000000, .f32⟩
  | .hbm, ⟨46, _⟩ => ⟨S8000000, .f32⟩
  | .hbm, ⟨47, _⟩ => ⟨S_, .f32⟩
  | .hbm, ⟨48, _⟩ => ⟨S8000000, .f32⟩
  | .hbm, ⟨49, _⟩ => ⟨S8000000, .f32⟩
  | .hbm, ⟨50, _⟩ => ⟨S_, .f32⟩
  | .hbm, ⟨51, _⟩ => ⟨S8000000, .f32⟩
  | .hbm, ⟨52, _⟩ => ⟨S8000000, .f32⟩
  | .hbm, ⟨53, _⟩ => ⟨S8000000, .f32⟩
  | .hbm, ⟨54, _⟩ => ⟨S8000000, .f32⟩
  | .hbm, ⟨55, _⟩ => ⟨S8000000, .f32⟩
  | .hbm, ⟨56, _⟩ => ⟨S_, .f32⟩
  | .hbm, ⟨57, _⟩ => ⟨S8000000, .f32⟩
  | .hbm, ⟨58, _⟩ => ⟨S8000000, .f32⟩
  | .hbm, ⟨59, _⟩ => ⟨S8000000, .f32⟩
  | .hbm, ⟨60, _⟩ => ⟨S8000000, .f32⟩
  | .hbm, ⟨61, _⟩ => ⟨S8000000, .f32⟩
  | .hbm, ⟨62, _⟩ => ⟨S_, .f32⟩
  | .hbm, ⟨63, _⟩ => ⟨S8000000, .f32⟩
  | .hbm, ⟨64, _⟩ => ⟨S8000000, .f32⟩
  | .hbm, ⟨65, _⟩ => ⟨S8000000, .f32⟩
  | .hbm, ⟨66, _⟩ => ⟨S8000000, .f32⟩
  | .hbm, ⟨67, _⟩ => ⟨S8000000, .f32⟩
  | .hbm, ⟨68, _⟩ => ⟨S_, .f32⟩
  | .hbm, ⟨69, _⟩ => ⟨S8000000, .f32⟩
  | .hbm, ⟨70, _⟩ => ⟨S8000000, .f32⟩
  | .hbm, ⟨71, _⟩ => ⟨S8000000, .f32⟩
  | .hbm, ⟨72, _⟩ => ⟨S8000000, .f32⟩
  | .hbm, ⟨73, _⟩ => ⟨S8000000, .f32⟩
  | .hbm, ⟨74, _⟩ => ⟨S_, .f32⟩
  | .hbm, ⟨75, _⟩ => ⟨S8000000, .f32⟩
  | .hbm, ⟨76, _⟩ => ⟨S8000000, .f32⟩
  | .hbm, ⟨77, _⟩ => ⟨S_, .f32⟩
  | .hbm, ⟨78, _⟩ => ⟨S8000000, .f32⟩
  | .hbm, ⟨79, _⟩ => ⟨S8000000, .f32⟩
  | .hbm, ⟨80, _⟩ => ⟨S8000000x1, .f32⟩
  | .hbm, ⟨81, _⟩ => ⟨S8000000x1, .f32⟩
  | .hbm, ⟨82, _⟩ => ⟨S8000000x1, .f32⟩
  | .hbm, ⟨83, _⟩ => ⟨S8000000x1, .f32⟩
  | .hbm, ⟨84, _⟩ => ⟨S8000000x1, .f32⟩
  | .hbm, ⟨85, _⟩ => ⟨S8000000x1, .f32⟩
  | .hbm, ⟨86, _⟩ => ⟨S8000000x1, .f32⟩
  | .hbm, ⟨87, _⟩ => ⟨S8000000x1, .f32⟩
  | .hbm, ⟨88, _⟩ => ⟨S8000000x1, .f32⟩
  | .hbm, ⟨89, _⟩ => ⟨S8000000x9, .f32⟩
  | .hbm, ⟨90, _⟩ => ⟨S8000000x3x3, .f32⟩
  | .hbm, ⟨91, _⟩ => ⟨S8000000x1x3, .f32⟩
  | .hbm, ⟨92, _⟩ => ⟨S8000000x3x3, .f32⟩
  | .hbm, ⟨93, _⟩ => ⟨S8000000x3x3, .f32⟩
  | .hbm, ⟨94, _⟩ => ⟨S8000000x3x3, .f32⟩
  | _, _ => ⟨S8000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_8 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_9 : Ref sig .tc := ⟨.hbm, 74, rfl⟩
abbrev main_v58 : Ref sig .tc := ⟨.hbm, 75, rfl⟩
abbrev main_v59 : Ref sig .tc := ⟨.hbm, 76, rfl⟩
abbrev main_cst_10 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩

abbrev nD : Nat := 1
abbrev τ : Topo := Topo.v7x

variable {F : FTy → Type} [FloatOps F]

class Facts₀ : Prop where
  reducesTo_S8000000x4_S8000000_d1 : S8000000x4.ReducesTo [1] S8000000
  h_S_ : 0 < S_.numel
  bcast_S8000000_S8000000x1_0 : S8000000.BroadcastsInDim S8000000x1 (![0] : Fin 1 → Fin S8000000x1.rank)
  bcast_S8000000x1_S8000000x4_0_1 : S8000000x1.BroadcastsInDim S8000000x4 (![0, 1] : Fin 2 → Fin S8000000x4.rank)
  slices_S8000000x4_S8000000x1_0_0 : S8000000x4.Slices ![0, 0] S8000000x1
  shapeCasts_S8000000x1_S8000000 : S8000000x1.ShapeCasts S8000000
  slices_S8000000x4_S8000000x1_0_1 : S8000000x4.Slices ![0, 1] S8000000x1
  slices_S8000000x4_S8000000x1_0_2 : S8000000x4.Slices ![0, 2] S8000000x1
  slices_S8000000x4_S8000000x1_0_3 : S8000000x4.Slices ![0, 3] S8000000x1
  bcast_S_S8000000 : S_.BroadcastsInDim S8000000 (![] : Fin 0 → Fin S8000000.rank)
  concatenates_S8000000x1_S8000000x1_S8000000x1_S8000000x1_S8000000x1_S8000000x1_S8000000x1_S8000000x1_S8000000x1_S8000000x9_d1 : Shape.Concatenates [S8000000x1, S8000000x1, S8000000x1, S8000000x1, S8000000x1, S8000000x1, S8000000x1, S8000000x1, S8000000x1] S8000000x9 1
  shapeCasts_S8000000x9_S8000000x3x3 : S8000000x9.ShapeCasts S8000000x3x3
  bcast_S8000000x3_S8000000x1x3_0_2 : S8000000x3.BroadcastsInDim S8000000x1x3 (![0, 2] : Fin 2 → Fin S8000000x1x3.rank)
  bcast_S8000000x1x3_S8000000x3x3_0_1_2 : S8000000x1x3.BroadcastsInDim S8000000x3x3 (![0, 1, 2] : Fin 3 → Fin S8000000x3x3.rank)
  dot_S8000000x3x3_S8000000x3x3_S8000000x3x3_2_2_1_1_0_0_wf : DotDims.WF S8000000x3x3 S8000000x3x3 S8000000x3x3 [2] [2] [1] [1] [0] [0]

variable [Facts₀]

def dot_S8000000x3x3_S8000000x3x3_S8000000x3x3_2_2_1_1_0_0 : DotDims S8000000x3x3 S8000000x3x3 S8000000x3x3 where
  lhsContracting := [2]
  rhsContracting := [2]
  lhsNonContracting := [1]
  rhsNonContracting := [1]
  lhsBatch := [0]
  rhsBatch := [0]
  wf := dot_S8000000x3x3_S8000000x3x3_S8000000x3x3_2_2_1_1_0_0_wf

class Facts : Prop extends Facts₀ where

variable [Facts]
-- ==== Proof.CovSpec.lean ====
/-
  The covariance of one Gaussian, on the extended reals: from a quaternion `q = (w, x, y, z)` and a scale
  `s = (sx, sy, sz)`, the 3×3 matrix `(R S)(R S)ᵀ` where `R` is the rotation of the NORMALIZED quaternion and
  `S = diag s`.  Both programs build `R` and `M = R S` by the same nine formulas; they differ in three places only:

  * the normalization: one multiplies each component by `rsqrt (Σ qₖ²)`, the other divides it by `sqrt (Σ qₖ²)`.
    These agree exactly when `0 < Σ qₖ²` (`div_sqrt_eq_mul_rsqrt`): for a positive real sum both are the product
    with `(√S)⁻¹`, for `S = +∞` both are `0`; at `S = 0` they differ (`x · ⊤` against `x / 0`), which is why the
    statement carries that hypothesis;
  * the contraction `Σⱼ M i j · M k j`: one takes it as a sum over `j`, the other as `(a + b) + c`;
  * the symmetric entries: one computes entry `(k, i)` for `k > i` afresh, the other copies entry `(i, k)`
    — commutativity of the product.
  No distributivity or cancellation is used, so nothing here needs the entries to be finite.
-/
import Idealize.ShloMosaic.PureOps.Ideal
import Idealize.ShloMosaic.PureOps.Ideal.Laws
import Idealize.ShloMosaic.Lib.ValueIdx
import Mathlib.Algebra.BigOperators.Fin

noncomputable section

namespace Cert.Cov

open Idealize.ShloMosaic

/-- The f32 words of `2.0` and `1.0`, read as extended reals (never evaluated: the same words on both sides). -/
abbrev c2 : EReal := Ideal.ofBits .f32 0x40000000#32
abbrev c1 : EReal := Ideal.ofBits .f32 0x3F800000#32

/-- The squared norm of a quaternion. -/
def sumsq (q : Fin 4 → EReal) : EReal := ∑ k : Fin 4, q k * q k

/-- Dividing by the root is multiplying by the reciprocal root, for every POSITIVE extended real `S`
    (a positive real, or `+∞` where both sides are `0`), whatever `x` is. -/
theorem div_sqrt_eq_mul_rsqrt (x S : EReal) (hS : 0 < S) : Ideal.div x (Ideal.sqrt S) = x * Ideal.rsqrt S := by
  induction S using EReal.rec with
  | bot => exact absurd hS (not_lt_bot)
  | top =>
    rw [Ideal.sqrt_top, Ideal.rsqrt_top, Ideal.div, if_neg EReal.top_ne_zero, EReal.inv_top]
  | coe r =>
    have hr : 0 < r := by exact_mod_cast hS
    have hs : Real.sqrt r ≠ 0 := (Real.sqrt_pos.2 hr).ne'
    rw [Ideal.sqrt_coe, if_neg (not_lt.2 hr.le), Ideal.rsqrt_coe, if_neg (not_lt.2 hr.le), if_neg hr.ne',
      Ideal.div_coe hs, one_div]

/-- One Gaussian's data after normalization: the unit quaternion and the scale. -/
structure Row where
  w : EReal
  x : EReal
  y : EReal
  z : EReal
  sx : EReal
  sy : EReal
  sz : EReal

/-- `M = R · diag s`, entry `(i, j)` at position `3 i + j`: the rotation matrix of the unit quaternion
    `(w, x, y, z)`, column `j` scaled by `sⱼ`. -/
def rs (g : Row) : Nat → EReal
  | 0 => (c1 - c2 * (g.y * g.y + g.z * g.z)) * g.sx
  | 1 => (c2 * (g.x * g.y - g.w * g.z)) * g.sy
  | 2 => (c2 * (g.x * g.z + g.w * g.y)) * g.sz
  | 3 => (c2 * (g.x * g.y + g.w * g.z)) * g.sx
  | 4 => (c1 - c2 * (g.x * g.x + g.z * g.z)) * g.sy
  | 5 => (c2 * (g.y * g.z - g.w * g.x)) * g.sz
  | 6 => (c2 * (g.x * g.z - g.w * g.y)) * g.sx
  | 7 => (c2 * (g.y * g.z + g.w * g.x)) * g.sy
  | _ => (c1 - c2 * (g.x * g.x + g.y * g.y)) * g.sz

/-- Row `i` of `M` against row `k`, added left to right. -/
def dot3 (g : Row) (i k : Nat) : EReal :=
  (rs g (3 * i) * rs g (3 * k) + rs g (3 * i + 1) * rs g (3 * k + 1)) + rs g (3 * i + 2) * rs g (3 * k + 2)

/-- `M Mᵀ` laid out as nine columns, entry `(i, k)` at position `3 i + k`: the upper triangle computed, the lower
    triangle the mirror image of the upper. -/
def cov9 (g : Row) : Nat → EReal
  | 0 => dot3 g 0 0
  | 1 => dot3 g 0 1
  | 2 => dot3 g 0 2
  | 3 => dot3 g 0 1
  | 4 => dot3 g 1 1
  | 5 => dot3 g 1 2
  | 6 => dot3 g 0 2
  | 7 => dot3 g 1 2
  | _ => dot3 g 2 2

/-- `M Mᵀ` as the contraction over the column index. -/
def covSum (g : Row) (i k : Fin 3) : EReal := ∑ j : Fin 3, rs g (3 * i.val + j.val) * rs g (3 * k.val + j.val)

/-- The contraction is the mirrored upper triangle: a three-term sum is `(a + b) + c`, and below the diagonal the
    factors of each product are exchanged. -/
theorem covSum_eq_cov9 (g : Row) (i k : Fin 3) : covSum g i k = cov9 g (3 * i.val + k.val) := by
  fin_cases i <;> fin_cases k <;>
    simp only [covSum, cov9, dot3, Fin.sum_univ_three, Fin.val_zero, Fin.val_one, Fin.val_two, Fin.zero_eta, Fin.mk_one,
      Fin.reduceFinMk, Nat.mul_zero, Nat.mul_one, Nat.zero_add, Nat.add_zero, Nat.reduceMul, Nat.reduceAdd] <;>
    first | rfl | (simp only [mul_comm])

/-! ## One Gaussian's row of the two argument arrays -/

open Idealize.ShloMosaic.ValueIdx

/-- Row `n` of a quaternion array. -/
def quat {N : Nat} (rot : (⟨2, ![N, 4]⟩ : Shape).Idx → EReal) (n : Fin N) : Fin 4 → EReal := fun k => rot (ix2 n k)

/-- Gaussian `n`'s data with the quaternion normalized by the reciprocal root of its squared norm. -/
def rowOf {N : Nat} (rot : (⟨2, ![N, 4]⟩ : Shape).Idx → EReal) (scl : (⟨2, ![N, 3]⟩ : Shape).Idx → EReal) (n : Fin N) : Row where
  w := rot (ix2 n (0 : Fin 4)) * Ideal.rsqrt (sumsq (quat rot n))
  x := rot (ix2 n (1 : Fin 4)) * Ideal.rsqrt (sumsq (quat rot n))
  y := rot (ix2 n (2 : Fin 4)) * Ideal.rsqrt (sumsq (quat rot n))
  z := rot (ix2 n (3 : Fin 4)) * Ideal.rsqrt (sumsq (quat rot n))
  sx := scl (ix2 n (0 : Fin 3))
  sy := scl (ix2 n (1 : Fin 3))
  sz := scl (ix2 n (2 : Fin 3))

/-- The same with the quaternion divided by its norm, the squared norm accumulated onto the zero word. -/
def rowDiv {N : Nat} (rot : (⟨2, ![N, 4]⟩ : Shape).Idx → EReal) (scl : (⟨2, ![N, 3]⟩ : Shape).Idx → EReal) (n : Fin N) : Row where
  w := Ideal.div (rot (ix2 n (0 : Fin 4))) (Ideal.sqrt (Ideal.ofBits .f32 0x00000000#32 + sumsq (quat rot n)))
  x := Ideal.div (rot (ix2 n (1 : Fin 4))) (Ideal.sqrt (Ideal.ofBits .f32 0x00000000#32 + sumsq (quat rot n)))
  y := Ideal.div (rot (ix2 n (2 : Fin 4))) (Ideal.sqrt (Ideal.ofBits .f32 0x00000000#32 + sumsq (quat rot n)))
  z := Ideal.div (rot (ix2 n (3 : Fin 4))) (Ideal.sqrt (Ideal.ofBits .f32 0x00000000#32 + sumsq (quat rot n)))
  sx := scl (ix2 n (0 : Fin 3))
  sy := scl (ix2 n (1 : Fin 3))
  sz := scl (ix2 n (2 : Fin 3))

/-- Where the squared norm is positive the two normalizations give the same row. -/
theorem rowDiv_eq_rowOf {N : Nat} (rot : (⟨2, ![N, 4]⟩ : Shape).Idx → EReal) (scl : (⟨2, ![N, 3]⟩ : Shape).Idx → EReal)
    (n : Fin N) (h : 0 < sumsq (quat rot n)) : rowDiv rot scl n = rowOf rot scl n := by
  unfold rowDiv rowOf
  rw [Ideal.ofBits_zero_f32, zero_add]
  simp only [div_sqrt_eq_mul_rsqrt _ _ h]

end Cert.Cov

end
-- ==== Proof.LibConcatColumns.lean ====
/-
  A general lemma on layouts: nine arrays of shape [N, 1] joined along axis 1 give an array of shape [N, 9] whose
  element at `(n, c)` is the `c`-th array's element at `(n, 0)`.
-/
import Idealize.ShloMosaic.Lib.Pipeline.Value
import Idealize.ShloMosaic.Lib.ValueIdx

noncomputable section

namespace Cert.LibConcatColumns

open Idealize.ShloMosaic Idealize.ShloMosaic.ValueIdx

/-- The `c`-th of nine things (the ninth for every `c ≥ 8`). -/
def pick9 {β : Type} (f0 f1 f2 f3 f4 f5 f6 f7 f8 : β) : Nat → β
  | 0 => f0 | 1 => f1 | 2 => f2 | 3 => f3 | 4 => f4 | 5 => f5 | 6 => f6 | 7 => f7 | _ => f8

/-- Nine columns joined along the second axis, read at row `n` and column `c`: column `c`'s entry in row `n`. -/
theorem concat9_apply {α : Type} {N : Nat}
    (f0 f1 f2 f3 f4 f5 f6 f7 f8 : (⟨2, ![N, 1]⟩ : Shape).Idx → α)
    (h : Shape.Concatenates (([⟨⟨2, ![N, 1]⟩, f0⟩, ⟨⟨2, ![N, 1]⟩, f1⟩, ⟨⟨2, ![N, 1]⟩, f2⟩, ⟨⟨2, ![N, 1]⟩, f3⟩,
      ⟨⟨2, ![N, 1]⟩, f4⟩, ⟨⟨2, ![N, 1]⟩, f5⟩, ⟨⟨2, ![N, 1]⟩, f6⟩, ⟨⟨2, ![N, 1]⟩, f7⟩, ⟨⟨2, ![N, 1]⟩, f8⟩] :
      List ((s : Shape) × (s.Idx → α))).map (·.1)) (⟨2, ![N, 9]⟩ : Shape) (1 : Fin 2))
    (n : Fin N) (c : Fin 9) :
    concatenate (⟨2, ![N, 9]⟩ : Shape) (1 : Fin 2) [⟨⟨2, ![N, 1]⟩, f0⟩, ⟨⟨2, ![N, 1]⟩, f1⟩, ⟨⟨2, ![N, 1]⟩, f2⟩, ⟨⟨2, ![N, 1]⟩, f3⟩,
      ⟨⟨2, ![N, 1]⟩, f4⟩, ⟨⟨2, ![N, 1]⟩, f5⟩, ⟨⟨2, ![N, 1]⟩, f6⟩, ⟨⟨2, ![N, 1]⟩, f7⟩, ⟨⟨2, ![N, 1]⟩, f8⟩] h (ix2 n c)
      = pick9 f0 f1 f2 f3 f4 f5 f6 f7 f8 c.val (ix2 n (0 : Fin 1)) := by
  have key : ∀ (k : Nat) (hk : k < 9) (x₁ : (⟨2, ![N, 1]⟩ : Shape).Idx → α),
      ([⟨⟨2, ![N, 1]⟩, f0⟩, ⟨⟨2, ![N, 1]⟩, f1⟩, ⟨⟨2, ![N, 1]⟩, f2⟩, ⟨⟨2, ![N, 1]⟩, f3⟩,
        ⟨⟨2, ![N, 1]⟩, f4⟩, ⟨⟨2, ![N, 1]⟩, f5⟩, ⟨⟨2, ![N, 1]⟩, f6⟩, ⟨⟨2, ![N, 1]⟩, f7⟩, ⟨⟨2, ![N, 1]⟩, f8⟩] :
        List ((s : Shape) × (s.Idx → α)))[k]'(by simpa using hk) = ⟨⟨2, ![N, 1]⟩, x₁⟩ →
      c.val = k →
      concatenate (⟨2, ![N, 9]⟩ : Shape) (1 : Fin 2) [⟨⟨2, ![N, 1]⟩, f0⟩, ⟨⟨2, ![N, 1]⟩, f1⟩, ⟨⟨2, ![N, 1]⟩, f2⟩, ⟨⟨2, ![N, 1]⟩, f3⟩,
        ⟨⟨2, ![N, 1]⟩, f4⟩, ⟨⟨2, ![N, 1]⟩, f5⟩, ⟨⟨2, ![N, 1]⟩, f6⟩, ⟨⟨2, ![N, 1]⟩, f7⟩, ⟨⟨2, ![N, 1]⟩, f8⟩] h (ix2 n c)
        = x₁ (ix2 n (0 : Fin 1)) := by
    intro k hk x₁ hx hc
    refine concatenate_apply_piece (1 : Fin 2) _ h (ix2 n c) k (by simpa using hk) ⟨2, ![N, 1]⟩ x₁ hx rfl k ?_ (ix2 n (0 : Fin 1)) ?_ ?_
    · interval_cases k <;> rfl
    · intro b hb
      match b with
      | ⟨0, _⟩ => rfl
      | ⟨1, _⟩ => exact absurd rfl hb
    · show k + 0 = c.val
      omega
  have hc : c.val < 9 := c.isLt
  rcases c with ⟨cv, hcv⟩
  interval_cases cv
  · exact key 0 (by omega) f0 rfl rfl
  · exact key 1 (by omega) f1 rfl rfl
  · exact key 2 (by omega) f2 rfl rfl
  · exact key 3 (by omega) f3 rfl rfl
  · exact key 4 (by omega) f4 rfl rfl
  · exact key 5 (by omega) f5 rfl rfl
  · exact key 6 (by omega) f6 rfl rfl
  · exact key 7 (by omega) f7 rfl rfl
  · exact key 8 (by omega) f8 rfl rfl

/-! The same, column by column. -/

theorem concat9_col0 {α : Type} {N : Nat}
    (f0 f1 f2 f3 f4 f5 f6 f7 f8 : (⟨2, ![N, 1]⟩ : Shape).Idx → α)
    (h : Shape.Concatenates (([⟨⟨2, ![N, 1]⟩, f0⟩, ⟨⟨2, ![N, 1]⟩, f1⟩, ⟨⟨2, ![N, 1]⟩, f2⟩, ⟨⟨2, ![N, 1]⟩, f3⟩,
      ⟨⟨2, ![N, 1]⟩, f4⟩, ⟨⟨2, ![N, 1]⟩, f5⟩, ⟨⟨2, ![N, 1]⟩, f6⟩, ⟨⟨2, ![N, 1]⟩, f7⟩, ⟨⟨2, ![N, 1]⟩, f8⟩] :
      List ((s : Shape) × (s.Idx → α))).map (·.1)) (⟨2, ![N, 9]⟩ : Shape) (1 : Fin 2))
    (n : Fin N) :
    concatenate (⟨2, ![N, 9]⟩ : Shape) (1 : Fin 2) [⟨⟨2, ![N, 1]⟩, f0⟩, ⟨⟨2, ![N, 1]⟩, f1⟩, ⟨⟨2, ![N, 1]⟩, f2⟩, ⟨⟨2, ![N, 1]⟩, f3⟩,
      ⟨⟨2, ![N, 1]⟩, f4⟩, ⟨⟨2, ![N, 1]⟩, f5⟩, ⟨⟨2, ![N, 1]⟩, f6⟩, ⟨⟨2, ![N, 1]⟩, f7⟩, ⟨⟨2, ![N, 1]⟩, f8⟩] h (ix2 n (0 : Fin 9))
      = f0 (ix2 n (0 : Fin 1)) :=
  concat9_apply f0 f1 f2 f3 f4 f5 f6 f7 f8 h n (0 : Fin 9)

theorem concat9_col1 {α : Type} {N : Nat}
    (f0 f1 f2 f3 f4 f5 f6 f7 f8 : (⟨2, ![N, 1]⟩ : Shape).Idx → α)
    (h : Shape.Concatenates (([⟨⟨2, ![N, 1]⟩, f0⟩, ⟨⟨2, ![N, 1]⟩, f1⟩, ⟨⟨2, ![N, 1]⟩, f2⟩, ⟨⟨2, ![N, 1]⟩, f3⟩,
      ⟨⟨2, ![N, 1]⟩, f4⟩, ⟨⟨2, ![N, 1]⟩, f5⟩, ⟨⟨2, ![N, 1]⟩, f6⟩, ⟨⟨2, ![N, 1]⟩, f7⟩, ⟨⟨2, ![N, 1]⟩, f8⟩] :
      List ((s : Shape) × (s.Idx → α))).map (·.1)) (⟨2, ![N, 9]⟩ : Shape) (1 : Fin 2))
    (n : Fin N) :
    concatenate (⟨2, ![N, 9]⟩ : Shape) (1 : Fin 2) [⟨⟨2, ![N, 1]⟩, f0⟩, ⟨⟨2, ![N, 1]⟩, f1⟩, ⟨⟨2, ![N, 1]⟩, f2⟩, ⟨⟨2, ![N, 1]⟩, f3⟩,
      ⟨⟨2, ![N, 1]⟩, f4⟩, ⟨⟨2, ![N, 1]⟩, f5⟩, ⟨⟨2, ![N, 1]⟩, f6⟩, ⟨⟨2, ![N, 1]⟩, f7⟩, ⟨⟨2, ![N, 1]⟩, f8⟩] h (ix2 n (1 : Fin 9))
      = f1 (ix2 n (0 : Fin 1)) :=
  concat9_apply f0 f1 f2 f3 f4 f5 f6 f7 f8 h n (1 : Fin 9)

theorem concat9_col2 {α : Type} {N : Nat}
    (f0 f1 f2 f3 f4 f5 f6 f7 f8 : (⟨2, ![N, 1]⟩ : Shape).Idx → α)
    (h : Shape.Concatenates (([⟨⟨2, ![N, 1]⟩, f0⟩, ⟨⟨2, ![N, 1]⟩, f1⟩, ⟨⟨2, ![N, 1]⟩, f2⟩, ⟨⟨2, ![N, 1]⟩, f3⟩,
      ⟨⟨2, ![N, 1]⟩, f4⟩, ⟨⟨2, ![N, 1]⟩, f5⟩, ⟨⟨2, ![N, 1]⟩, f6⟩, ⟨⟨2, ![N, 1]⟩, f7⟩, ⟨⟨2, ![N, 1]⟩, f8⟩] :
      List ((s : Shape) × (s.Idx → α))).map (·.1)) (⟨2, ![N, 9]⟩ : Shape) (1 : Fin 2))
    (n : Fin N) :
    concatenate (⟨2, ![N, 9]⟩ : Shape) (1 : Fin 2) [⟨⟨2, ![N, 1]⟩, f0⟩, ⟨⟨2, ![N, 1]⟩, f1⟩, ⟨⟨2, ![N, 1]⟩, f2⟩, ⟨⟨2, ![N, 1]⟩, f3⟩,
      ⟨⟨2, ![N, 1]⟩, f4⟩, ⟨⟨2, ![N, 1]⟩, f5⟩, ⟨⟨2, ![N, 1]⟩, f6⟩, ⟨⟨2, ![N, 1]⟩, f7⟩, ⟨⟨2, ![N, 1]⟩, f8⟩] h (ix2 n (2 : Fin 9))
      = f2 (ix2 n (0 : Fin 1)) :=
  concat9_apply f0 f1 f2 f3 f4 f5 f6 f7 f8 h n (2 : Fin 9)

theorem concat9_col3 {α : Type} {N : Nat}
    (f0 f1 f2 f3 f4 f5 f6 f7 f8 : (⟨2, ![N, 1]⟩ : Shape).Idx → α)
    (h : Shape.Concatenates (([⟨⟨2, ![N, 1]⟩, f0⟩, ⟨⟨2, ![N, 1]⟩, f1⟩, ⟨⟨2, ![N, 1]⟩, f2⟩, ⟨⟨2, ![N, 1]⟩, f3⟩,
      ⟨⟨2, ![N, 1]⟩, f4⟩, ⟨⟨2, ![N, 1]⟩, f5⟩, ⟨⟨2, ![N, 1]⟩, f6⟩, ⟨⟨2, ![N, 1]⟩, f7⟩, ⟨⟨2, ![N, 1]⟩, f8⟩] :
      List ((s : Shape) × (s.Idx → α))).map (·.1)) (⟨2, ![N, 9]⟩ : Shape) (1 : Fin 2))
    (n : Fin N) :
    concatenate (⟨2, ![N, 9]⟩ : Shape) (1 : Fin 2) [⟨⟨2, ![N, 1]⟩, f0⟩, ⟨⟨2, ![N, 1]⟩, f1⟩, ⟨⟨2, ![N, 1]⟩, f2⟩, ⟨⟨2, ![N, 1]⟩, f3⟩,
      ⟨⟨2, ![N, 1]⟩, f4⟩, ⟨⟨2, ![N, 1]⟩, f5⟩, ⟨⟨2, ![N, 1]⟩, f6⟩, ⟨⟨2, ![N, 1]⟩, f7⟩, ⟨⟨2, ![N, 1]⟩, f8⟩] h (ix2 n (3 : Fin 9))
      = f3 (ix2 n (0 : Fin 1)) :=
  concat9_apply f0 f1 f2 f3 f4 f5 f6 f7 f8 h n (3 : Fin 9)

theorem concat9_col4 {α : Type} {N : Nat}
    (f0 f1 f2 f3 f4 f5 f6 f7 f8 : (⟨2, ![N, 1]⟩ : Shape).Idx → α)
    (h : Shape.Concatenates (([⟨⟨2, ![N, 1]⟩, f0⟩, ⟨⟨2, ![N, 1]⟩, f1⟩, ⟨⟨2, ![N, 1]⟩, f2⟩, ⟨⟨2, ![N, 1]⟩, f3⟩,
      ⟨⟨2, ![N, 1]⟩, f4⟩, ⟨⟨2, ![N, 1]⟩, f5⟩, ⟨⟨2, ![N, 1]⟩, f6⟩, ⟨⟨2, ![N, 1]⟩, f7⟩, ⟨⟨2, ![N, 1]⟩, f8⟩] :
      List ((s : Shape) × (s.Idx → α))).map (·.1)) (⟨2, ![N, 9]⟩ : Shape) (1 : Fin 2))
    (n : Fin N) :
    concatenate (⟨2, ![N, 9]⟩ : Shape) (1 : Fin 2) [⟨⟨2, ![N, 1]⟩, f0⟩, ⟨⟨2, ![N, 1]⟩, f1⟩, ⟨⟨2, ![N, 1]⟩, f2⟩, ⟨⟨2, ![N, 1]⟩, f3⟩,
      ⟨⟨2, ![N, 1]⟩, f4⟩, ⟨⟨2, ![N, 1]⟩, f5⟩, ⟨⟨2, ![N, 1]⟩, f6⟩, ⟨⟨2, ![N, 1]⟩, f7⟩, ⟨⟨2, ![N, 1]⟩, f8⟩] h (ix2 n (4 : Fin 9))
      = f4 (ix2 n (0 : Fin 1)) :=
  concat9_apply f0 f1 f2 f3 f4 f5 f6 f7 f8 h n (4 : Fin 9)

theorem concat9_col5 {α : Type} {N : Nat}
    (f0 f1 f2 f3 f4 f5 f6 f7 f8 : (⟨2, ![N, 1]⟩ : Shape).Idx → α)
    (h : Shape.Concatenates (([⟨⟨2, ![N, 1]⟩, f0⟩, ⟨⟨2, ![N, 1]⟩, f1⟩, ⟨⟨2, ![N, 1]⟩, f2⟩, ⟨⟨2, ![N, 1]⟩, f3⟩,
      ⟨⟨2, ![N, 1]⟩, f4⟩, ⟨⟨2, ![N, 1]⟩, f5⟩, ⟨⟨2, ![N, 1]⟩, f6⟩, ⟨⟨2, ![N, 1]⟩, f7⟩, ⟨⟨2, ![N, 1]⟩, f8⟩] :
      List ((s : Shape) × (s.Idx → α))).map (·.1)) (⟨2, ![N, 9]⟩ : Shape) (1 : Fin 2))
    (n : Fin N) :
    concatenate (⟨2, ![N, 9]⟩ : Shape) (1 : Fin 2) [⟨⟨2, ![N, 1]⟩, f0⟩, ⟨⟨2, ![N, 1]⟩, f1⟩, ⟨⟨2, ![N, 1]⟩, f2⟩, ⟨⟨2, ![N, 1]⟩, f3⟩,
      ⟨⟨2, ![N, 1]⟩, f4⟩, ⟨⟨2, ![N, 1]⟩, f5⟩, ⟨⟨2, ![N, 1]⟩, f6⟩, ⟨⟨2, ![N, 1]⟩, f7⟩, ⟨⟨2, ![N, 1]⟩, f8⟩] h (ix2 n (5 : Fin 9))
      = f5 (ix2 n (0 : Fin 1)) :=
  concat9_apply f0 f1 f2 f3 f4 f5 f6 f7 f8 h n (5 : Fin 9)

theorem concat9_col6 {α : Type} {N : Nat}
    (f0 f1 f2 f3 f4 f5 f6 f7 f8 : (⟨2, ![N, 1]⟩ : Shape).Idx → α)
    (h : Shape.Concatenates (([⟨⟨2, ![N, 1]⟩, f0⟩, ⟨⟨2, ![N, 1]⟩, f1⟩, ⟨⟨2, ![N, 1]⟩, f2⟩, ⟨⟨2, ![N, 1]⟩, f3⟩,
      ⟨⟨2, ![N, 1]⟩, f4⟩, ⟨⟨2, ![N, 1]⟩, f5⟩, ⟨⟨2, ![N, 1]⟩, f6⟩, ⟨⟨2, ![N, 1]⟩, f7⟩, ⟨⟨2, ![N, 1]⟩, f8⟩] :
      List ((s : Shape) × (s.Idx → α))).map (·.1)) (⟨2, ![N, 9]⟩ : Shape) (1 : Fin 2))
    (n : Fin N) :
    concatenate (⟨2, ![N, 9]⟩ : Shape) (1 : Fin 2) [⟨⟨2, ![N, 1]⟩, f0⟩, ⟨⟨2, ![N, 1]⟩, f1⟩, ⟨⟨2, ![N, 1]⟩, f2⟩, ⟨⟨2, ![N, 1]⟩, f3⟩,
      ⟨⟨2, ![N, 1]⟩, f4⟩, ⟨⟨2, ![N, 1]⟩, f5⟩, ⟨⟨2, ![N, 1]⟩, f6⟩, ⟨⟨2, ![N, 1]⟩, f7⟩, ⟨⟨2, ![N, 1]⟩, f8⟩] h (ix2 n (6 : Fin 9))
      = f6 (ix2 n (0 : Fin 1)) :=
  concat9_apply f0 f1 f2 f3 f4 f5 f6 f7 f8 h n (6 : Fin 9)

theorem concat9_col7 {α : Type} {N : Nat}
    (f0 f1 f2 f3 f4 f5 f6 f7 f8 : (⟨2, ![N, 1]⟩ : Shape).Idx → α)
    (h : Shape.Concatenates (([⟨⟨2, ![N, 1]⟩, f0⟩, ⟨⟨2, ![N, 1]⟩, f1⟩, ⟨⟨2, ![N, 1]⟩, f2⟩, ⟨⟨2, ![N, 1]⟩, f3⟩,
      ⟨⟨2, ![N, 1]⟩, f4⟩, ⟨⟨2, ![N, 1]⟩, f5⟩, ⟨⟨2, ![N, 1]⟩, f6⟩, ⟨⟨2, ![N, 1]⟩, f7⟩, ⟨⟨2, ![N, 1]⟩, f8⟩] :
      List ((s : Shape) × (s.Idx → α))).map (·.1)) (⟨2, ![N, 9]⟩ : Shape) (1 : Fin 2))
    (n : Fin N) :
    concatenate (⟨2, ![N, 9]⟩ : Shape) (1 : Fin 2) [⟨⟨2, ![N, 1]⟩, f0⟩, ⟨⟨2, ![N, 1]⟩, f1⟩, ⟨⟨2, ![N, 1]⟩, f2⟩, ⟨⟨2, ![N, 1]⟩, f3⟩,
      ⟨⟨2, ![N, 1]⟩, f4⟩, ⟨⟨2, ![N, 1]⟩, f5⟩, ⟨⟨2, ![N, 1]⟩, f6⟩, ⟨⟨2, ![N, 1]⟩, f7⟩, ⟨⟨2, ![N, 1]⟩, f8⟩] h (ix2 n (7 : Fin 9))
      = f7 (ix2 n (0 : Fin 1)) :=
  concat9_apply f0 f1 f2 f3 f4 f5 f6 f7 f8 h n (7 : Fin 9)

theorem concat9_col8 {α : Type} {N : Nat}
    (f0 f1 f2 f3 f4 f5 f6 f7 f8 : (⟨2, ![N, 1]⟩ : Shape).Idx → α)
    (h : Shape.Concatenates (([⟨⟨2, ![N, 1]⟩, f0⟩, ⟨⟨2, ![N, 1]⟩, f1⟩, ⟨⟨2, ![N, 1]⟩, f2⟩, ⟨⟨2, ![N, 1]⟩, f3⟩,
      ⟨⟨2, ![N, 1]⟩, f4⟩, ⟨⟨2, ![N, 1]⟩, f5⟩, ⟨⟨2, ![N, 1]⟩, f6⟩, ⟨⟨2, ![N, 1]⟩, f7⟩, ⟨⟨2, ![N, 1]⟩, f8⟩] :
      List ((s : Shape) × (s.Idx → α))).map (·.1)) (⟨2, ![N, 9]⟩ : Shape) (1 : Fin 2))
    (n : Fin N) :
    concatenate (⟨2, ![N, 9]⟩ : Shape) (1 : Fin 2) [⟨⟨2, ![N, 1]⟩, f0⟩, ⟨⟨2, ![N, 1]⟩, f1⟩, ⟨⟨2, ![N, 1]⟩, f2⟩, ⟨⟨2, ![N, 1]⟩, f3⟩,
      ⟨⟨2, ![N, 1]⟩, f4⟩, ⟨⟨2, ![N, 1]⟩, f5⟩, ⟨⟨2, ![N, 1]⟩, f6⟩, ⟨⟨2, ![N, 1]⟩, f7⟩, ⟨⟨2, ![N, 1]⟩, f8⟩] h (ix2 n (8 : Fin 9))
      = f8 (ix2 n (0 : Fin 1)) :=
  concat9_apply f0 f1 f2 f3 f4 f5 f6 f7 f8 h n (8 : Fin 9)

end Cert.LibConcatColumns

end
-- ==== Proof.KerBlock.lean ====
/-
  What the kernel's body leaves in its output block, entry by entry.  The body loads a block of 2000 quaternions and a
  block of 2000 scales, multiplies each quaternion by the reciprocal root of its squared norm (a lane sum over the four
  components, kept as a column and broadcast back over them), slices the four normalized components and the three scale
  components into columns, computes from them the nine entries of `M = R · diag s` and the six distinct entries of
  `M Mᵀ`, and stores the nine columns `c00 c01 c02 c01 c11 c12 c02 c12 c22` joined along the second axis.  So the stored
  block's entry `(p, c)` is column `c` of the mirrored upper triangle of Gaussian `p`'s row.
-/
import proofs.«150694_j39608188403926_2_alg».proof.Proof.Gen.KernelIdeal.Frame
import proofs.«150694_j39608188403926_2_alg».proof.Proof.CovSpec
import proofs.«150694_j39608188403926_2_alg».proof.Proof.LibConcatColumns
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KerBlock

open Cert.KernelIdeal Cert.KernelIdeal.Gen Idealize.ShloMosaic Idealize.ShloMosaic.TcCoe
open Idealize.ShloMosaic.ValueIdx Cert.Cov Cert.LibConcatColumns

variable (x0 : Vec Ideal S2000x4 .f32) (x1 : Vec Ideal S2000x3 .f32)

/-- The lane sum of the squares, at row `p`: the squared norm of quaternion `p` of the block. -/
theorem lane_sum (p : Fin 2000) :
    multiReduction (F := Ideal) .add [1] S2000 (mulf x0 x0) 0x00000000#32 reduces_S2000x4_S2000 (.inl rfl) rfl (ix1 p)
      = sumsq (quat x0 p) := by
  refine (Ideal.multiReduction_add_single (mulf x0 x0) 0x00000000#32 reduces_S2000x4_S2000 (.inl rfl) rfl (ix1 p)).trans ?_
  unfold sumsq quat
  refine Finset.sum_congr rfl fun k _ => ?_
  have e : reduces_S2000x4_S2000.lift (ix1 p) k = ix2 p k :=
    funext fun a => Fin.ext (by match a with | ⟨0, _⟩ => rfl | ⟨1, _⟩ => rfl)
  rw [e]
  rfl

/-- The normalized block: component `j` of quaternion `p` times the reciprocal root of its squared norm. -/
theorem unit_at (p : Fin 2000) (j : Fin 4) :
    k0_pay2 (F := Ideal) x0 (ix2 p j) = x0 (ix2 p j) * Ideal.rsqrt (sumsq (quat x0 p)) := by
  show x0 (ix2 p j) * broadcastTo S2000x4 (rsqrt (shapeCast S2000x1
      (multiReduction (F := Ideal) .add [1] S2000 (mulf x0 x0) 0x00000000#32 reduces_S2000x4_S2000 (.inl rfl) rfl)
      shapeCasts_S2000_S2000x1)) broadcasts_S2000x1_S2000x4 (ix2 p j) = _
  refine congrArg (x0 (ix2 p j) * ·) ?_
  refine (broadcastTo_apply _ broadcasts_S2000x1_S2000x4 (ix2 p j) (ix2 p (0 : Fin 1)) (fun a => by
    match a with
    | ⟨0, _⟩ => show p.val = if (2000 : Nat) = 1 then 0 else p.val; rw [if_neg (by decide)]
    | ⟨1, _⟩ => show 0 = if (1 : Nat) = 1 then 0 else j.val; rw [if_pos rfl])).trans ?_
  show Ideal.rsqrt (shapeCast S2000x1 _ shapeCasts_S2000_S2000x1 (ix2 p (0 : Fin 1))) = _
  refine congrArg Ideal.rsqrt ?_
  refine (shapeCast_apply _ shapeCasts_S2000_S2000x1 (ix2 p (0 : Fin 1)) (ix1 p) (by
    rewrite [Shape.rowMajor_val_one, Shape.rowMajor_val_two]; show p.val = p.val * 1 + 0; omega)).trans ?_
  exact lane_sum x0 p

/-- The four component columns are the four columns of the normalized block. -/
theorem comp0_at (p : Fin 2000) : k0_pay3 (F := Ideal) x0 (ix2 p (0 : Fin 1)) = k0_pay2 (F := Ideal) x0 (ix2 p (0 : Fin 4)) :=
  slice2_axis1_apply 0 (k0_pay2 (F := Ideal) x0) slices_S2000x4_o0_0_S2000x1 p 0 0 rfl
theorem comp1_at (p : Fin 2000) : k0_pay4 (F := Ideal) x0 (ix2 p (0 : Fin 1)) = k0_pay2 (F := Ideal) x0 (ix2 p (1 : Fin 4)) :=
  slice2_axis1_apply 1 (k0_pay2 (F := Ideal) x0) slices_S2000x4_o0_1_S2000x1 p 0 1 rfl
theorem comp2_at (p : Fin 2000) : k0_pay5 (F := Ideal) x0 (ix2 p (0 : Fin 1)) = k0_pay2 (F := Ideal) x0 (ix2 p (2 : Fin 4)) :=
  slice2_axis1_apply 2 (k0_pay2 (F := Ideal) x0) slices_S2000x4_o0_2_S2000x1 p 0 2 rfl
theorem comp3_at (p : Fin 2000) : k0_pay6 (F := Ideal) x0 (ix2 p (0 : Fin 1)) = k0_pay2 (F := Ideal) x0 (ix2 p (3 : Fin 4)) :=
  slice2_axis1_apply 3 (k0_pay2 (F := Ideal) x0) slices_S2000x4_o0_3_S2000x1 p 0 3 rfl
/-- The three scale columns are the three columns of the scale block. -/
theorem scale0_at (p : Fin 2000) : k0_pay7 (F := Ideal) x1 (ix2 p (0 : Fin 1)) = x1 (ix2 p (0 : Fin 3)) :=
  slice2_axis1_apply 0 x1 slices_S2000x3_o0_0_S2000x1 p 0 0 rfl
theorem scale1_at (p : Fin 2000) : k0_pay8 (F := Ideal) x1 (ix2 p (0 : Fin 1)) = x1 (ix2 p (1 : Fin 3)) :=
  slice2_axis1_apply 1 x1 slices_S2000x3_o0_1_S2000x1 p 0 1 rfl
theorem scale2_at (p : Fin 2000) : k0_pay9 (F := Ideal) x1 (ix2 p (0 : Fin 1)) = x1 (ix2 p (2 : Fin 3)) :=
  slice2_axis1_apply 2 x1 slices_S2000x3_o0_2_S2000x1 p 0 2 rfl

/-- Gaussian `p`'s row as the body holds it: the seven sliced columns at row `p`. -/
def slicedRow (p : Fin 2000) : Row where
  w := k0_pay3 (F := Ideal) x0 (ix2 p (0 : Fin 1))
  x := k0_pay4 (F := Ideal) x0 (ix2 p (0 : Fin 1))
  y := k0_pay5 (F := Ideal) x0 (ix2 p (0 : Fin 1))
  z := k0_pay6 (F := Ideal) x0 (ix2 p (0 : Fin 1))
  sx := k0_pay7 (F := Ideal) x1 (ix2 p (0 : Fin 1))
  sy := k0_pay8 (F := Ideal) x1 (ix2 p (0 : Fin 1))
  sz := k0_pay9 (F := Ideal) x1 (ix2 p (0 : Fin 1))

theorem slicedRow_eq (p : Fin 2000) : slicedRow x0 x1 p = rowOf x0 x1 p := by
  unfold slicedRow rowOf
  rw [comp0_at, comp1_at, comp2_at, comp3_at, unit_at, unit_at, unit_at, unit_at, scale0_at, scale1_at, scale2_at]

end Cert.KernelIdeal.KerBlock

end
-- ==== Proof.KerColumns.lean ====
/-
  The kernel body's output block, entry `(p, c)`: column `c` of the nine stored columns at row `p`, which is the
  specification's column `c` — an upper-triangle entry of `M Mᵀ` — of Gaussian `p`'s normalized row.
-/
import proofs.«150694_j39608188403926_2_alg».proof.Proof.KerBlock

noncomputable section

namespace Cert.KernelIdeal.KerColumns

open Cert.KernelIdeal Cert.KernelIdeal.Gen Idealize.ShloMosaic Idealize.ShloMosaic.TcCoe
open Idealize.ShloMosaic.ValueIdx Cert.Cov Cert.LibConcatColumns Cert.KernelIdeal.KerBlock

variable (x0 : Vec Ideal S2000x4 .f32) (x1 : Vec Ideal S2000x3 .f32)

theorem hz : (![0, 0] : Fin 2 → Nat) = fun _ => 0 := funext fun a => by fin_cases a <;> rfl

/-- The stored value, as the body computes it from the two loaded blocks. -/
def stored : FVec Ideal S2000x9 .f32 :=
  k0_pay1 (k0_pay24 (k0_pay4 x0) (k0_pay5 x0) (k0_pay9 x1))
    (k0_pay25 (k0_pay7 x1) (k0_pay8 x1) (k0_pay9 x1) (k0_pay10 x0) (k0_pay11 x0) (k0_pay12 x0))
    (k0_pay26 (k0_pay7 x1) (k0_pay8 x1) (k0_pay9 x1) (k0_pay10 x0) (k0_pay11 x0) (k0_pay12 x0) (k0_pay13 x0) (k0_pay14 x0) (k0_pay15 x0))
    (k0_pay27 (k0_pay3 x0) (k0_pay4 x0) (k0_pay5 x0) (k0_pay6 x0) (k0_pay7 x1) (k0_pay8 x1) (k0_pay9 x1) (k0_pay10 x0) (k0_pay11 x0) (k0_pay12 x0))
    (k0_pay28 (k0_pay7 x1) (k0_pay8 x1) (k0_pay9 x1) (k0_pay13 x0) (k0_pay14 x0) (k0_pay15 x0))
    (k0_pay29 (k0_pay3 x0) (k0_pay4 x0) (k0_pay5 x0) (k0_pay6 x0) (k0_pay7 x1) (k0_pay8 x1) (k0_pay9 x1) (k0_pay13 x0) (k0_pay14 x0) (k0_pay15 x0))
    (k0_pay30 (k0_pay3 x0) (k0_pay4 x0) (k0_pay5 x0) (k0_pay6 x0) (k0_pay7 x1))
    (k0_pay31 (k0_pay3 x0) (k0_pay4 x0) (k0_pay5 x0) (k0_pay6 x0) (k0_pay8 x1))

/-- The output block after the body is the stored value: one store over the whole block. -/
theorem out_eq_stored : out0_2 (F := Ideal) x0 x1 = stored x0 x1 := by
  unfold out0_2
  rw [View.canon_unit_zero hz]
  simp only [View.ld_unit_zero (S := S2000x4) hz, View.ld_unit_zero (S := S2000x3) hz]
  rfl

/-- Entry `(p, c)` of the stored value, in the seven sliced columns at row `p`. -/
theorem stored_sliced (p : Fin 2000) (c : Fin 9) : stored x0 x1 (ix2 p c) = cov9 (slicedRow x0 x1 p) c.val := by
  unfold stored k0_pay1
  refine (concat9_apply _ _ _ _ _ _ _ _ _ _ p c).trans ?_
  rcases c with ⟨cv, hc⟩
  interval_cases cv <;> rfl

/-- Entry `(p, c)` of the output block: column `c` of Gaussian `p`'s row. -/
theorem block_at (p : Fin 2000) (c : Fin 9) : out0_2 (F := Ideal) x0 x1 (ix2 p c) = cov9 (rowOf x0 x1 p) c.val := by
  rw [out_eq_stored, stored_sliced, slicedRow_eq]

end Cert.KernelIdeal.KerColumns

end
-- ==== Proof.CovArray.lean ====
/-
  The specification over the whole argument arrays: the [N, 9] array of the nine columns of every Gaussian, and its
  reading as [N, 3, 3] (entry `(a, b)` of Gaussian `n` is column `3 a + b`), N = 8,000,000.
-/
import proofs.«150694_j39608188403926_2_alg».proof.Proof.CovSpec

noncomputable section

namespace Cert.Cov

open Idealize.ShloMosaic Idealize.ShloMosaic.ValueIdx

/-- A Gaussian's row depends on its own quaternion and scale only: two arrays (of any lengths) that agree on row `n`
    and row `n'` give the same row there. -/
theorem rowOf_congr {N N' : Nat} (rot : (⟨2, ![N, 4]⟩ : Shape).Idx → EReal) (scl : (⟨2, ![N, 3]⟩ : Shape).Idx → EReal)
    (rot' : (⟨2, ![N', 4]⟩ : Shape).Idx → EReal) (scl' : (⟨2, ![N', 3]⟩ : Shape).Idx → EReal) (n : Fin N) (n' : Fin N')
    (hq : ∀ k : Fin 4, rot (ix2 n k) = rot' (ix2 n' k)) (hs : ∀ k : Fin 3, scl (ix2 n k) = scl' (ix2 n' k)) :
    rowOf rot scl n = rowOf rot' scl' n' := by
  have e : quat rot n = quat rot' n' := funext hq
  unfold rowOf
  rw [e, hq 0, hq 1, hq 2, hq 3, hs 0, hs 1, hs 2]

/-- The nine columns of every Gaussian. -/
def covArr9 (rot : (⟨2, ![8000000, 4]⟩ : Shape).Idx → EReal) (scl : (⟨2, ![8000000, 3]⟩ : Shape).Idx → EReal) :
    (⟨2, ![8000000, 9]⟩ : Shape).Idx → EReal :=
  fun i => cov9 (rowOf rot scl (i 0)) (i 1).val

theorem covArr9_apply (rot : (⟨2, ![8000000, 4]⟩ : Shape).Idx → EReal) (scl : (⟨2, ![8000000, 3]⟩ : Shape).Idx → EReal)
    (n : Fin 8000000) (c : Fin 9) : covArr9 rot scl (ix2 n c) = cov9 (rowOf rot scl n) c.val := rfl

end Cert.Cov

end
-- ==== Proof.KerArray.lean ====
/-
  From the output blocks to the output array.  Grid point `t` (of 4000) stages rows `2000 t … 2000 t + 1999` of both
  arguments and writes back the same rows of the [8000000, 9] output; row `p` of its block holds the nine columns of
  Gaussian `2000 t + p`.  The 4000 blocks tile the output, so after the run the output array is the nine columns of
  every Gaussian.
-/
import proofs.«150694_j39608188403926_2_alg».proof.Proof.KerColumns
import proofs.«150694_j39608188403926_2_alg».proof.Proof.CovArray
import Idealize.ShloMosaic.Lib.Pipeline.Value

set_option maxRecDepth 16384

noncomputable section

namespace Cert.KernelIdeal.KerArray

open Cert.KernelIdeal Cert.KernelIdeal.Gen Idealize.ShloMosaic Idealize.ShloMosaic.TcCoe Idealize.SL.Sem
open Idealize.ShloMosaic.ValueIdx Cert.Cov Cert.KernelIdeal.KerBlock Cert.KernelIdeal.KerColumns
open Idealize.ShloMosaic.Pipeline (Dat Cfg Window)

variable (m : (ℓ : Loc nD τ sig) → Buf (Elt Ideal) ℓ)

/-- The three windows move together: at point `t` each is at block `(t, 0)`. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- One entry of a block against one entry of the array: if block row `p` of both inputs is row `n` of the
    argument arrays, the body's output at `(p, cc)` is the array of columns at `(n, cc)`. -/
theorem block_entry (x0 : Vec Ideal S2000x4 .f32) (x1 : Vec Ideal S2000x3 .f32)
    (A0 : S8000000x4.Idx → EReal) (A1 : S8000000x3.Idx → EReal) (p : Fin 2000) (cc : Fin 9) (i : S8000000x9.Idx) (n : Fin 8000000)
    (h0 : ∀ k : Fin 4, x0 (ix2 p k) = A0 (ix2 n k)) (h1 : ∀ k : Fin 3, x1 (ix2 p k) = A1 (ix2 n k))
    (hi0 : (i 0).val = n.val) (hi1 : (i 1).val = cc.val) :
    out0_2 (F := Ideal) x0 x1 (ix2 p cc) = covArr9 A0 A1 i := by
  have ei : i = ix2 n cc := by
    funext a
    match a with
    | ⟨0, _⟩ => exact Fin.ext hi0
    | ⟨1, _⟩ => exact Fin.ext hi1
  rw [ei, block_at, covArr9_apply, rowOf_congr x0 x1 A0 A1 p n h0 h1]

/-- WHAT POINT `t` WRITES BACK is block `t` of the array of columns of the argument arrays. -/
theorem flushed_eq (c : Dev nD) (t : Fin cfg0.N) :
    (dats m 0 c).flushed 2 t = ((cfg0.win 2).blk t).view.read (Elt Ideal) (covArr9 (V m c main_arg0) (V m c main_arg1)) := by
  show (cfg0.win 2).cut (grid0.coords t) ((dats m 0 c).after 2 t) = _
  rw [after0_2]
  obtain ⟨e00, e01, e10, e11, e20, e21⟩ := index_facts t
  have ht : t.val < 4000 := t.isLt
  funext j
  obtain ⟨p, cc, rfl⟩ : ∃ (p : Fin 2000) (cc : Fin 9), j = ix2 p cc := ⟨j 0, j 1, eq_ix2 j⟩
  have hp : p.val < 2000 := p.isLt
  have hcc : cc.val < 9 := cc.isLt
  refine block_entry (iblk m c 0 t) (iblk m c 1 t) (V m c main_arg0) (V m c main_arg1) p cc
    (((cfg0.win 2).blk t).view.emb (ix2 p cc)) ⟨t.val * 2000 + p.val, by omega⟩ (fun k => ?_) (fun k => ?_) ?_ ?_
  · show V m c main_arg0 (((cfg0.win 0).blk t).view.emb (ix2 p k)) = _
    refine congrArg _ (funext fun a => Fin.ext ?_)
    match a with
    | ⟨0, _⟩ => show win0_0.index t (0 : Fin 2) * 2000 + 1 * p.val = t.val * 2000 + p.val; omega
    | ⟨1, _⟩ => show win0_0.index t (1 : Fin 2) * 4 + 1 * k.val = k.val; omega
  · show V m c main_arg1 (((cfg0.win 1).blk t).view.emb (ix2 p k)) = _
    refine congrArg _ (funext fun a => Fin.ext ?_)
    match a with
    | ⟨0, _⟩ => show win0_1.index t (0 : Fin 2) * 2000 + 1 * p.val = t.val * 2000 + p.val; omega
    | ⟨1, _⟩ => show win0_1.index t (1 : Fin 2) * 3 + 1 * k.val = k.val; omega
  · show win0_2.index t (0 : Fin 2) * 2000 + 1 * p.val = t.val * 2000 + p.val; omega
  · show win0_2.index t (1 : Fin 2) * 9 + 1 * cc.val = cc.val; omega

/-- An index of the array is in point `t`'s block iff each coordinate is in the block's range on its axis. -/
theorem mem_blk (t : Fin cfg0.N) (i : S8000000x9.Idx) :
    i ∈ ((cfg0.win 2).blk t).view.set ↔ ∀ a : Fin 2, win0_2.index t a * S2000x9.size a ≤ (i a).val ∧ (i a).val < win0_2.index t a * S2000x9.size a + S2000x9.size a := by
  show i ∈ ((View.whole main_call0_v0).slice (win0_2.rect t)).set ↔ _
  rw [View.set_slice_whole, Rect.mem_set_unit]
  exact Iff.rfl

/-- Every row of the array is in the block of the point its row number over 2000 names. -/
theorem covered (i : S8000000x9.Idx) : ∃ t : Fin cfg0.N, (cfg0.win 2).flush t = true ∧ i ∈ ((cfg0.win 2).blk t).view.set := by
  have hi0 : (i 0).val < 8000000 := (i 0).isLt
  have hi1 : (i 1).val < 9 := (i 1).isLt
  refine ⟨⟨(i 0).val / 2000, by show (i 0).val / 2000 < 4000; omega⟩, flush0_2 _, ?_⟩
  rw [mem_blk]
  obtain ⟨-, -, -, -, e20, e21⟩ := index_facts ⟨(i 0).val / 2000, by show (i 0).val / 2000 < 4000; omega⟩
  have e20' : win0_2.index ⟨(i 0).val / 2000, by show (i 0).val / 2000 < 4000; omega⟩ (0 : Fin 2) = (i 0).val / 2000 := e20
  intro a
  match a with
  | ⟨0, _⟩ =>
    show win0_2.index _ (0 : Fin 2) * 2000 ≤ (i 0).val ∧ (i 0).val < win0_2.index _ (0 : Fin 2) * 2000 + 2000
    rw [e20']; omega
  | ⟨1, _⟩ =>
    show win0_2.index _ (1 : Fin 2) * 9 ≤ (i 1).val ∧ (i 1).val < win0_2.index _ (1 : Fin 2) * 9 + 9
    rw [e21]; omega

/-- THE OUTPUT ARRAY after the run: the nine columns of every Gaussian of the argument arrays. -/
theorem final (c : Dev nD) :
    (dats m 0 c).arrAt 2 cfg0.N
      = covArr9 (m ((c : Thread nD τ).loc main_arg0)) (m ((c : Thread nD τ).loc main_arg1)) :=
  (dats m 0 c).arrAt_eq_of_cover 2 _ (fun t _ => flushed_eq m c t) covered

end Cert.KernelIdeal.KerArray

end
-- ==== Proof.KerRun.lean ====
/-
  The kernel program's run, read.  After the region @main has one more line: it reshapes the [8000000, 9] output array to
  [8000000, 3, 3] (row-major: entry `(a, b)` of Gaussian `n` is column `3 a + b` of row `n`).  So every weakly fair
  execution ends with the result array at that reshape of the nine columns of every Gaussian, the arguments unchanged.
-/
import proofs.«150694_j39608188403926_2_alg».proof.Proof.KerArray
import Idealize.ShloMosaic.Lib.StableHlo.Run
import Idealize.ShloMosaic.Lib.Pipeline.FrameSuffix

set_option maxRecDepth 16384

noncomputable section

namespace Cert.KernelIdeal.KerRun

open Cert.KernelIdeal Cert.KernelIdeal.Gen Idealize.ShloMosaic Idealize.ShloMosaic.TcCoe Idealize.SL.Sem
open Idealize.ShloMosaic.ValueIdx Cert.Cov Cert.KernelIdeal.KerArray Idealize.ShloMosaic.StableHlo
open Idealize.ShloMosaic.Pipeline (Dat Cfg Window)

variable (m : (ℓ : Loc nD τ sig) → Buf (Elt Ideal) ℓ) (ρ : Dev nD → PrngReg)

/-- The result array as a function of the argument arrays: the nine columns of every Gaussian, reshaped to 3×3. -/
def result (A0 : S8000000x4.Idx → EReal) (A1 : S8000000x3.Idx → EReal) : S8000000x3x3.Idx → EReal :=
  shapeCast S8000000x3x3 (covArr9 A0 A1) shapeCasts_S8000000x9_S8000000x3x3

/-- The result buffer is neither scoped nor one of the region's arrays. -/
theorem result_mem_rest : main_v0 ∈ Pipeline.restRefs sig (cfgs 0).spec := by decide

/-- What the line after the region leaves in the result buffer. -/
theorem tail_result (c : Dev nD) :
    Pipeline.afterTail₀ cfgs (dats m) 0 (V0 m) [hostOps1] c main_v0
      = result (m ((c : Thread nD τ).loc main_arg0)) (m ((c : Thread nD τ).loc main_arg1)) := by
  have hW : Pipeline.withArrays spec0 c (V0 m c) (fun w => (dats m 0 c).arrAt w cfg0.N) (Proc.devRef .tc (Pipeline.arrRef spec0 2))
      = covArr9 (m ((c : Thread nD τ).loc main_arg0)) (m ((c : Thread nD τ).loc main_arg1)) :=
    (Pipeline.withArrays_arr spec0 launch0.win.arr_inj c _ _ 2).trans (final m c)
  unfold Pipeline.afterTail₀
  show StableHlo.after hostOps1 _ (Proc.devRef .tc main_v0) = _
  after_results
  show shapeCast S8000000x3x3 (Pipeline.withArrays spec0 c (V0 m c) (fun w => (dats m 0 c).arrAt w cfg0.N)
      (Proc.devRef .tc (Pipeline.arrRef spec0 2))) shapeCasts_S8000000x9_S8000000x3x3 = _
  rw [hW]
  rfl

/-- The frame run re-posted: the result array named, the arguments unchanged. -/
theorem run : θ_run defs (onTc (τ := τ) (main (F := Ideal))) ⟨m, fun _ => 0, ρ⟩ fun r => ∀ c : Dev nD,
      r.2.mem ((c.tc : Thread nD τ).loc main_v0)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v0 result_mem_rest).trans (tail_result m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KerRun

end
-- ==== Proof.RefValue.lean ====
/-
  The reference's result, index by index.  Its @main normalizes each quaternion by DIVIDING by its norm (the root of the
  squared norm accumulated onto the zero word), slices the four components into vectors over the Gaussians, builds the
  nine rotation entries from them, joins the nine as columns, reshapes [N, 9] to [N, 3, 3] (entry `(i, j)` is column
  `3 i + j`), scales column `j` by `sⱼ`, and contracts the last axis of the result with itself.  Read at
  `(n, a, b)` this is the contraction `Σⱼ M a j · M b j` of Gaussian `n`'s row normalized by division.
-/
import proofs.«150694_j39608188403926_2_alg».proof.Proof.Gen.ReferenceIdeal.Read
import proofs.«150694_j39608188403926_2_alg».proof.Proof.CovSpec
import proofs.«150694_j39608188403926_2_alg».proof.Proof.LibConcatColumns

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.Cov Cert.LibConcatColumns

variable (x0 : (⟨S8000000x4, .f32⟩ : BufTy).Contents (Elt Ideal)) (x1 : (⟨S8000000x3, .f32⟩ : BufTy).Contents (Elt Ideal))

/-- The norm of quaternion `n`: the root of the zero word plus the sum of the four squares. -/
theorem norm_at (n : Fin 8000000) :
    val_main_v0 (F := Ideal) x0 (ix2 n (0 : Fin 1)) = Ideal.sqrt (Ideal.ofBits .f32 0x00000000#32 + sumsq (quat x0 n)) := by
  have e : ∀ k : Fin 4, idx_main_call0_v1 (idx_main_call0_v2 (ix2 n (0 : Fin 1))) k = ix2 n k := fun k =>
    funext fun a => Fin.ext (by match a with | ⟨0, _⟩ => rfl | ⟨1, _⟩ => rfl)
  rw [val_main_v0_apply, val_main_call0_v2_apply, val_main_call0_v1_apply]
  simp only [e, val_main_call0_cst_apply, val_main_call0_v0_apply, Ideal.hostUnary_sqrt_def, Ideal.mulf_def, Ideal.ofBits_def]
  rfl

/-- Component `j` of the normalized quaternion `n`: the component over the norm. -/
theorem unit_at (n : Fin 8000000) (j : Fin 4) :
    val_main_v2 (F := Ideal) x0 (ix2 n j)
      = Ideal.div (x0 (ix2 n j)) (Ideal.sqrt (Ideal.ofBits .f32 0x00000000#32 + sumsq (quat x0 n))) := by
  have e : idx_main_v1 (ix2 n j) = ix2 n (0 : Fin 1) :=
    funext fun a => Fin.ext (by match a with | ⟨0, _⟩ => rfl | ⟨1, _⟩ => rfl)
  rw [val_main_v2_apply, val_main_v1_apply, e, norm_at]
  rfl

/-- The four component vectors are the four columns of the normalized array. -/
theorem w_at (n : Fin 8000000) : val_main_v4 (F := Ideal) x0 (ix1 n) = val_main_v2 (F := Ideal) x0 (ix2 n (0 : Fin 4)) := by
  rw [val_main_v4_apply, val_main_v3_apply]
  exact congrArg _ (funext fun a => Fin.ext (by match a with | ⟨0, _⟩ => exact Nat.div_one _ | ⟨1, _⟩ => rfl))
theorem x_at (n : Fin 8000000) : val_main_v6 (F := Ideal) x0 (ix1 n) = val_main_v2 (F := Ideal) x0 (ix2 n (1 : Fin 4)) := by
  rw [val_main_v6_apply, val_main_v5_apply]
  exact congrArg _ (funext fun a => Fin.ext (by match a with | ⟨0, _⟩ => exact Nat.div_one _ | ⟨1, _⟩ => rfl))
theorem y_at (n : Fin 8000000) : val_main_v8 (F := Ideal) x0 (ix1 n) = val_main_v2 (F := Ideal) x0 (ix2 n (2 : Fin 4)) := by
  rw [val_main_v8_apply, val_main_v7_apply]
  exact congrArg _ (funext fun a => Fin.ext (by match a with | ⟨0, _⟩ => exact Nat.div_one _ | ⟨1, _⟩ => rfl))
theorem z_at (n : Fin 8000000) : val_main_v10 (F := Ideal) x0 (ix1 n) = val_main_v2 (F := Ideal) x0 (ix2 n (3 : Fin 4)) := by
  rw [val_main_v10_apply, val_main_v9_apply]
  exact congrArg _ (funext fun a => Fin.ext (by match a with | ⟨0, _⟩ => exact Nat.div_one _ | ⟨1, _⟩ => rfl))

end Cert.ReferenceIdeal.RefValue

end
-- ==== Proof.RefEntries.lean ====
/-
  The reference's nine rotation entries, each a vector over the Gaussians: the same nine formulas in the four
  component vectors `w, x, y, z` (the reference's stages `%4, %6, %8, %10`) as the specification's.
-/
import proofs.«150694_j39608188403926_2_alg».proof.Proof.Gen.ReferenceIdeal.Read
import proofs.«150694_j39608188403926_2_alg».proof.Proof.CovSpec

noncomputable section

namespace Cert.ReferenceIdeal.RefEntries

open Cert.ReferenceIdeal Cert.ReferenceIdeal.Gen Cert.ReferenceIdeal.Read Idealize.ShloMosaic Idealize.ShloMosaic.TcCoe
open Idealize.ShloMosaic.ValueIdx Cert.Cov

variable (x0 : (⟨S8000000x4, .f32⟩ : BufTy).Contents (Elt Ideal)) (x1 : (⟨S8000000x3, .f32⟩ : BufTy).Contents (Elt Ideal))

theorem entry0_at (n : Fin 8000000) :
    val_main_v17 (F := Ideal) x0 (ix1 n) = c1 - c2 * (val_main_v8 (F := Ideal) x0 (ix1 n) * val_main_v8 (F := Ideal) x0 (ix1 n) + val_main_v10 (F := Ideal) x0 (ix1 n) * val_main_v10 (F := Ideal) x0 (ix1 n)) := by
  rw [val_main_v17_apply, val_main_v16_apply, val_main_cst_0_apply, val_main_v15_apply, val_main_v14_apply, val_main_cst_apply, val_main_v13_apply, val_main_v11_apply, val_main_v12_apply]
  rfl

theorem entry1_at (n : Fin 8000000) :
    val_main_v22 (F := Ideal) x0 (ix1 n) = c2 * (val_main_v6 (F := Ideal) x0 (ix1 n) * val_main_v8 (F := Ideal) x0 (ix1 n) - val_main_v4 (F := Ideal) x0 (ix1 n) * val_main_v10 (F := Ideal) x0 (ix1 n)) := by
  rw [val_main_v22_apply, val_main_v21_apply, val_main_cst_1_apply, val_main_v20_apply, val_main_v18_apply, val_main_v19_apply]
  rfl

theorem entry2_at (n : Fin 8000000) :
    val_main_v27 (F := Ideal) x0 (ix1 n) = c2 * (val_main_v6 (F := Ideal) x0 (ix1 n) * val_main_v10 (F := Ideal) x0 (ix1 n) + val_main_v4 (F := Ideal) x0 (ix1 n) * val_main_v8 (F := Ideal) x0 (ix1 n)) := by
  rw [val_main_v27_apply, val_main_v26_apply, val_main_cst_2_apply, val_main_v25_apply, val_main_v23_apply, val_main_v24_apply]
  rfl

theorem entry3_at (n : Fin 8000000) :
    val_main_v32 (F := Ideal) x0 (ix1 n) = c2 * (val_main_v6 (F := Ideal) x0 (ix1 n) * val_main_v8 (F := Ideal) x0 (ix1 n) + val_main_v4 (F := Ideal) x0 (ix1 n) * val_main_v10 (F := Ideal) x0 (ix1 n)) := by
  rw [val_main_v32_apply, val_main_v31_apply, val_main_cst_3_apply, val_main_v30_apply, val_main_v28_apply, val_main_v29_apply]
  rfl

theorem entry4_at (n : Fin 8000000) :
    val_main_v39 (F := Ideal) x0 (ix1 n) = c1 - c2 * (val_main_v6 (F := Ideal) x0 (ix1 n) * val_main_v6 (F := Ideal) x0 (ix1 n) + val_main_v10 (F := Ideal) x0 (ix1 n) * val_main_v10 (F := Ideal) x0 (ix1 n)) := by
  rw [val_main_v39_apply, val_main_v38_apply, val_main_cst_5_apply, val_main_v37_apply, val_main_v36_apply, val_main_cst_4_apply, val_main_v35_apply, val_main_v33_apply, val_main_v34_apply]
  rfl

theorem entry5_at (n : Fin 8000000) :
    val_main_v44 (F := Ideal) x0 (ix1 n) = c2 * (val_main_v8 (F := Ideal) x0 (ix1 n) * val_main_v10 (F := Ideal) x0 (ix1 n) - val_main_v4 (F := Ideal) x0 (ix1 n) * val_main_v6 (F := Ideal) x0 (ix1 n)) := by
  rw [val_main_v44_apply, val_main_v43_apply, val_main_cst_6_apply, val_main_v42_apply, val_main_v40_apply, val_main_v41_apply]
  rfl

theorem entry6_at (n : Fin 8000000) :
    val_main_v49 (F := Ideal) x0 (ix1 n) = c2 * (val_main_v6 (F := Ideal) x0 (ix1 n) * val_main_v10 (F := Ideal) x0 (ix1 n) - val_main_v4 (F := Ideal) x0 (ix1 n) * val_main_v8 (F := Ideal) x0 (ix1 n)) := by
  rw [val_main_v49_apply, val_main_v48_apply, val_main_cst_7_apply, val_main_v47_apply, val_main_v45_apply, val_main_v46_apply]
  rfl

theorem entry7_at (n : Fin 8000000) :
    val_main_v54 (F := Ideal) x0 (ix1 n) = c2 * (val_main_v8 (F := Ideal) x0 (ix1 n) * val_main_v10 (F := Ideal) x0 (ix1 n) + val_main_v4 (F := Ideal) x0 (ix1 n) * val_main_v6 (F := Ideal) x0 (ix1 n)) := by
  rw [val_main_v54_apply, val_main_v53_apply, val_main_cst_8_apply, val_main_v52_apply, val_main_v50_apply, val_main_v51_apply]
  rfl

theorem entry8_at (n : Fin 8000000) :
    val_main_v61 (F := Ideal) x0 (ix1 n) = c1 - c2 * (val_main_v6 (F := Ideal) x0 (ix1 n) * val_main_v6 (F := Ideal) x0 (ix1 n) + val_main_v8 (F := Ideal) x0 (ix1 n) * val_main_v8 (F := Ideal) x0 (ix1 n)) := by
  rw [val_main_v61_apply, val_main_v60_apply, val_main_cst_10_apply, val_main_v59_apply, val_main_v58_apply, val_main_cst_9_apply, val_main_v57_apply, val_main_v55_apply, val_main_v56_apply]
  rfl

end Cert.ReferenceIdeal.RefEntries

end
-- ==== Proof.RefJoin.lean ====
/-
  The reference's nine entries as columns [N, 1], the nine joined to [N, 9], the join reshaped to [N, 3, 3] (entry
  `(a, j)` of Gaussian `n` is column `3 a + j` of row `n`), and the scale broadcast over each matrix's rows.
-/
import proofs.«150694_j39608188403926_2_alg».proof.Proof.Gen.ReferenceIdeal.Read
import proofs.«150694_j39608188403926_2_alg».proof.Proof.CovSpec
import proofs.«150694_j39608188403926_2_alg».proof.Proof.LibConcatColumns

noncomputable section

namespace Cert.ReferenceIdeal.RefJoin

open Cert.ReferenceIdeal Cert.ReferenceIdeal.Gen Cert.ReferenceIdeal.Read Idealize.ShloMosaic Idealize.ShloMosaic.TcCoe
open Idealize.ShloMosaic.ValueIdx Cert.Cov Cert.LibConcatColumns

variable (x0 : (⟨S8000000x4, .f32⟩ : BufTy).Contents (Elt Ideal)) (x1 : (⟨S8000000x3, .f32⟩ : BufTy).Contents (Elt Ideal))

theorem column0_at (n : Fin 8000000) :
    val_main_v62 (F := Ideal) x0 (ix2 n (0 : Fin 1)) = val_main_v17 (F := Ideal) x0 (ix1 n) := by
  rw [val_main_v62_apply]
  exact congrArg _ (funext fun a => Fin.ext (by match a with | ⟨0, _⟩ => rfl))

theorem column1_at (n : Fin 8000000) :
    val_main_v63 (F := Ideal) x0 (ix2 n (0 : Fin 1)) = val_main_v22 (F := Ideal) x0 (ix1 n) := by
  rw [val_main_v63_apply]
  exact congrArg _ (funext fun a => Fin.ext (by match a with | ⟨0, _⟩ => rfl))

theorem column2_at (n : Fin 8000000) :
    val_main_v64 (F := Ideal) x0 (ix2 n (0 : Fin 1)) = val_main_v27 (F := Ideal) x0 (ix1 n) := by
  rw [val_main_v64_apply]
  exact congrArg _ (funext fun a => Fin.ext (by match a with | ⟨0, _⟩ => rfl))

theorem column3_at (n : Fin 8000000) :
    val_main_v65 (F := Ideal) x0 (ix2 n (0 : Fin 1)) = val_main_v32 (F := Ideal) x0 (ix1 n) := by
  rw [val_main_v65_apply]
  exact congrArg _ (funext fun a => Fin.ext (by match a with | ⟨0, _⟩ => rfl))

theorem column4_at (n : Fin 8000000) :
    val_main_v66 (F := Ideal) x0 (ix2 n (0 : Fin 1)) = val_main_v39 (F := Ideal) x0 (ix1 n) := by
  rw [val_main_v66_apply]
  exact congrArg _ (funext fun a => Fin.ext (by match a with | ⟨0, _⟩ => rfl))

theorem column5_at (n : Fin 8000000) :
    val_main_v67 (F := Ideal) x0 (ix2 n (0 : Fin 1)) = val_main_v44 (F := Ideal) x0 (ix1 n) := by
  rw [val_main_v67_apply]
  exact congrArg _ (funext fun a => Fin.ext (by match a with | ⟨0, _⟩ => rfl))

theorem column6_at (n : Fin 8000000) :
    val_main_v68 (F := Ideal) x0 (ix2 n (0 : Fin 1)) = val_main_v49 (F := Ideal) x0 (ix1 n) := by
  rw [val_main_v68_apply]
  exact congrArg _ (funext fun a => Fin.ext (by match a with | ⟨0, _⟩ => rfl))

theorem column7_at (n : Fin 8000000) :
    val_main_v69 (F := Ideal) x0 (ix2 n (0 : Fin 1)) = val_main_v54 (F := Ideal) x0 (ix1 n) := by
  rw [val_main_v69_apply]
  exact congrArg _ (funext fun a => Fin.ext (by match a with | ⟨0, _⟩ => rfl))

theorem column8_at (n : Fin 8000000) :
    val_main_v70 (F := Ideal) x0 (ix2 n (0 : Fin 1)) = val_main_v61 (F := Ideal) x0 (ix1 n) := by
  rw [val_main_v70_apply]
  exact congrArg _ (funext fun a => Fin.ext (by match a with | ⟨0, _⟩ => rfl))

/-! The joined array at row `n`, column `c`: the `c`-th column's entry in row `n`. -/

theorem joined0_at (n : Fin 8000000) :
    val_main_v71 (F := Ideal) x0 (ix2 n (0 : Fin 9)) = val_main_v62 (F := Ideal) x0 (ix2 n (0 : Fin 1)) := by
  unfold val_main_v71
  exact concat9_col0 _ _ _ _ _ _ _ _ _ _ n

theorem joined1_at (n : Fin 8000000) :
    val_main_v71 (F := Ideal) x0 (ix2 n (1 : Fin 9)) = val_main_v63 (F := Ideal) x0 (ix2 n (0 : Fin 1)) := by
  unfold val_main_v71
  exact concat9_col1 _ _ _ _ _ _ _ _ _ _ n

theorem joined2_at (n : Fin 8000000) :
    val_main_v71 (F := Ideal) x0 (ix2 n (2 : Fin 9)) = val_main_v64 (F := Ideal) x0 (ix2 n (0 : Fin 1)) := by
  unfold val_main_v71
  exact concat9_col2 _ _ _ _ _ _ _ _ _ _ n

theorem joined3_at (n : Fin 8000000) :
    val_main_v71 (F := Ideal) x0 (ix2 n (3 : Fin 9)) = val_main_v65 (F := Ideal) x0 (ix2 n (0 : Fin 1)) := by
  unfold val_main_v71
  exact concat9_col3 _ _ _ _ _ _ _ _ _ _ n

theorem joined4_at (n : Fin 8000000) :
    val_main_v71 (F := Ideal) x0 (ix2 n (4 : Fin 9)) = val_main_v66 (F := Ideal) x0 (ix2 n (0 : Fin 1)) := by
  unfold val_main_v71
  exact concat9_col4 _ _ _ _ _ _ _ _ _ _ n

theorem joined5_at (n : Fin 8000000) :
    val_main_v71 (F := Ideal) x0 (ix2 n (5 : Fin 9)) = val_main_v67 (F := Ideal) x0 (ix2 n (0 : Fin 1)) := by
  unfold val_main_v71
  exact concat9_col5 _ _ _ _ _ _ _ _ _ _ n

theorem joined6_at (n : Fin 8000000) :
    val_main_v71 (F := Ideal) x0 (ix2 n (6 : Fin 9)) = val_main_v68 (F := Ideal) x0 (ix2 n (0 : Fin 1)) := by
  unfold val_main_v71
  exact concat9_col6 _ _ _ _ _ _ _ _ _ _ n

theorem joined7_at (n : Fin 8000000) :
    val_main_v71 (F := Ideal) x0 (ix2 n (7 : Fin 9)) = val_main_v69 (F := Ideal) x0 (ix2 n (0 : Fin 1)) := by
  unfold val_main_v71
  exact concat9_col7 _ _ _ _ _ _ _ _ _ _ n

theorem joined8_at (n : Fin 8000000) :
    val_main_v71 (F := Ideal) x0 (ix2 n (8 : Fin 9)) = val_main_v70 (F := Ideal) x0 (ix2 n (0 : Fin 1)) := by
  unfold val_main_v71
  exact concat9_col8 _ _ _ _ _ _ _ _ _ _ n

/-! The reshape reads entry `(a, j)` of Gaussian `n` from column `3 a + j` of row `n`. -/

theorem reshaped0_at (n : Fin 8000000) :
    val_main_v72 (F := Ideal) x0 (ix3 n (0 : Fin 3) (0 : Fin 3)) = val_main_v71 (F := Ideal) x0 (ix2 n (0 : Fin 9)) := by
  rw [val_main_v72_apply]
  refine congrArg _ (funext fun d => Fin.ext ?_)
  have hn := n.isLt
  match d with
  | ⟨0, _⟩ => show ((n.val * 3 + 0) * 3 + 0) / 9 = n.val; omega
  | ⟨1, _⟩ => show ((n.val * 3 + 0) * 3 + 0) % 9 = 0; omega

theorem reshaped1_at (n : Fin 8000000) :
    val_main_v72 (F := Ideal) x0 (ix3 n (0 : Fin 3) (1 : Fin 3)) = val_main_v71 (F := Ideal) x0 (ix2 n (1 : Fin 9)) := by
  rw [val_main_v72_apply]
  refine congrArg _ (funext fun d => Fin.ext ?_)
  have hn := n.isLt
  match d with
  | ⟨0, _⟩ => show ((n.val * 3 + 0) * 3 + 1) / 9 = n.val; omega
  | ⟨1, _⟩ => show ((n.val * 3 + 0) * 3 + 1) % 9 = 1; omega

theorem reshaped2_at (n : Fin 8000000) :
    val_main_v72 (F := Ideal) x0 (ix3 n (0 : Fin 3) (2 : Fin 3)) = val_main_v71 (F := Ideal) x0 (ix2 n (2 : Fin 9)) := by
  rw [val_main_v72_apply]
  refine congrArg _ (funext fun d => Fin.ext ?_)
  have hn := n.isLt
  match d with
  | ⟨0, _⟩ => show ((n.val * 3 + 0) * 3 + 2) / 9 = n.val; omega
  | ⟨1, _⟩ => show ((n.val * 3 + 0) * 3 + 2) % 9 = 2; omega

theorem reshaped3_at (n : Fin 8000000) :
    val_main_v72 (F := Ideal) x0 (ix3 n (1 : Fin 3) (0 : Fin 3)) = val_main_v71 (F := Ideal) x0 (ix2 n (3 : Fin 9)) := by
  rw [val_main_v72_apply]
  refine congrArg _ (funext fun d => Fin.ext ?_)
  have hn := n.isLt
  match d with
  | ⟨0, _⟩ => show ((n.val * 3 + 1) * 3 + 0) / 9 = n.val; omega
  | ⟨1, _⟩ => show ((n.val * 3 + 1) * 3 + 0) % 9 = 3; omega

theorem reshaped4_at (n : Fin 8000000) :
    val_main_v72 (F := Ideal) x0 (ix3 n (1 : Fin 3) (1 : Fin 3)) = val_main_v71 (F := Ideal) x0 (ix2 n (4 : Fin 9)) := by
  rw [val_main_v72_apply]
  refine congrArg _ (funext fun d => Fin.ext ?_)
  have hn := n.isLt
  match d with
  | ⟨0, _⟩ => show ((n.val * 3 + 1) * 3 + 1) / 9 = n.val; omega
  | ⟨1, _⟩ => show ((n.val * 3 + 1) * 3 + 1) % 9 = 4; omega

theorem reshaped5_at (n : Fin 8000000) :
    val_main_v72 (F := Ideal) x0 (ix3 n (1 : Fin 3) (2 : Fin 3)) = val_main_v71 (F := Ideal) x0 (ix2 n (5 : Fin 9)) := by
  rw [val_main_v72_apply]
  refine congrArg _ (funext fun d => Fin.ext ?_)
  have hn := n.isLt
  match d with
  | ⟨0, _⟩ => show ((n.val * 3 + 1) * 3 + 2) / 9 = n.val; omega
  | ⟨1, _⟩ => show ((n.val * 3 + 1) * 3 + 2) % 9 = 5; omega

theorem reshaped6_at (n : Fin 8000000) :
    val_main_v72 (F := Ideal) x0 (ix3 n (2 : Fin 3) (0 : Fin 3)) = val_main_v71 (F := Ideal) x0 (ix2 n (6 : Fin 9)) := by
  rw [val_main_v72_apply]
  refine congrArg _ (funext fun d => Fin.ext ?_)
  have hn := n.isLt
  match d with
  | ⟨0, _⟩ => show ((n.val * 3 + 2) * 3 + 0) / 9 = n.val; omega
  | ⟨1, _⟩ => show ((n.val * 3 + 2) * 3 + 0) % 9 = 6; omega

theorem reshaped7_at (n : Fin 8000000) :
    val_main_v72 (F := Ideal) x0 (ix3 n (2 : Fin 3) (1 : Fin 3)) = val_main_v71 (F := Ideal) x0 (ix2 n (7 : Fin 9)) := by
  rw [val_main_v72_apply]
  refine congrArg _ (funext fun d => Fin.ext ?_)
  have hn := n.isLt
  match d with
  | ⟨0, _⟩ => show ((n.val * 3 + 2) * 3 + 1) / 9 = n.val; omega
  | ⟨1, _⟩ => show ((n.val * 3 + 2) * 3 + 1) % 9 = 7; omega

theorem reshaped8_at (n : Fin 8000000) :
    val_main_v72 (F := Ideal) x0 (ix3 n (2 : Fin 3) (2 : Fin 3)) = val_main_v71 (F := Ideal) x0 (ix2 n (8 : Fin 9)) := by
  rw [val_main_v72_apply]
  refine congrArg _ (funext fun d => Fin.ext ?_)
  have hn := n.isLt
  match d with
  | ⟨0, _⟩ => show ((n.val * 3 + 2) * 3 + 2) / 9 = n.val; omega
  | ⟨1, _⟩ => show ((n.val * 3 + 2) * 3 + 2) % 9 = 8; omega

/-- The scale, broadcast over the rows of each Gaussian's matrix: column `j` of every row reads `sⱼ`. -/
theorem scale_at (n : Fin 8000000) (a j : Fin 3) : val_main_v74 (F := Ideal) x1 (ix3 n a j) = x1 (ix2 n j) := by
  rw [val_main_v74_apply, val_main_v73_apply]
  exact congrArg _ (funext fun d => Fin.ext (by match d with | ⟨0, _⟩ => rfl | ⟨1, _⟩ => rfl))

end Cert.ReferenceIdeal.RefJoin

end
-- ==== Proof.RefMatrix.lean ====
/-
  The reference's result at `(n, a, b)`: the contraction over `j` of `M a j · M b j`, where `M = R · diag s` is built
  from Gaussian `n`'s quaternion divided by its norm.  Where the squared norm is positive this is the specification's
  mirrored upper triangle of the row normalized by the reciprocal root.
-/
import proofs.«150694_j39608188403926_2_alg».proof.Proof.RefValue
import proofs.«150694_j39608188403926_2_alg».proof.Proof.RefEntries
import proofs.«150694_j39608188403926_2_alg».proof.Proof.RefJoin

noncomputable section

namespace Cert.ReferenceIdeal.RefMatrix

open Cert.ReferenceIdeal Cert.ReferenceIdeal.Gen Cert.ReferenceIdeal.Read Idealize.ShloMosaic Idealize.ShloMosaic.TcCoe
open Idealize.ShloMosaic.ValueIdx Cert.Cov Cert.LibConcatColumns
open Cert.ReferenceIdeal.RefValue Cert.ReferenceIdeal.RefEntries Cert.ReferenceIdeal.RefJoin

variable (x0 : (⟨S8000000x4, .f32⟩ : BufTy).Contents (Elt Ideal)) (x1 : (⟨S8000000x3, .f32⟩ : BufTy).Contents (Elt Ideal))

/-- Gaussian `n`'s row as the reference holds it: the four component vectors at `n`, and row `n` of the scale. -/
def vecRow (n : Fin 8000000) : Row where
  w := val_main_v4 (F := Ideal) x0 (ix1 n)
  x := val_main_v6 (F := Ideal) x0 (ix1 n)
  y := val_main_v8 (F := Ideal) x0 (ix1 n)
  z := val_main_v10 (F := Ideal) x0 (ix1 n)
  sx := x1 (ix2 n (0 : Fin 3))
  sy := x1 (ix2 n (1 : Fin 3))
  sz := x1 (ix2 n (2 : Fin 3))

theorem vecRow_eq (n : Fin 8000000) : vecRow x0 x1 n = rowDiv x0 x1 n := by
  unfold vecRow rowDiv
  rw [w_at, x_at, y_at, z_at, unit_at, unit_at, unit_at, unit_at]

/-- The entries of `M` for a row given by its seven numbers. -/
theorem rs_mk_0 (w x y z sx sy sz : EReal) : rs ⟨w, x, y, z, sx, sy, sz⟩ 0 = (c1 - c2 * (y * y + z * z)) * sx := rfl
theorem rs_mk_1 (w x y z sx sy sz : EReal) : rs ⟨w, x, y, z, sx, sy, sz⟩ 1 = (c2 * (x * y - w * z)) * sy := rfl
theorem rs_mk_2 (w x y z sx sy sz : EReal) : rs ⟨w, x, y, z, sx, sy, sz⟩ 2 = (c2 * (x * z + w * y)) * sz := rfl
theorem rs_mk_3 (w x y z sx sy sz : EReal) : rs ⟨w, x, y, z, sx, sy, sz⟩ 3 = (c2 * (x * y + w * z)) * sx := rfl
theorem rs_mk_4 (w x y z sx sy sz : EReal) : rs ⟨w, x, y, z, sx, sy, sz⟩ 4 = (c1 - c2 * (x * x + z * z)) * sy := rfl
theorem rs_mk_5 (w x y z sx sy sz : EReal) : rs ⟨w, x, y, z, sx, sy, sz⟩ 5 = (c2 * (y * z - w * x)) * sz := rfl
theorem rs_mk_6 (w x y z sx sy sz : EReal) : rs ⟨w, x, y, z, sx, sy, sz⟩ 6 = (c2 * (x * z - w * y)) * sx := rfl
theorem rs_mk_7 (w x y z sx sy sz : EReal) : rs ⟨w, x, y, z, sx, sy, sz⟩ 7 = (c2 * (y * z + w * x)) * sy := rfl
theorem rs_mk_8 (w x y z sx sy sz : EReal) : rs ⟨w, x, y, z, sx, sy, sz⟩ 8 = (c1 - c2 * (x * x + y * y)) * sz := rfl

/-! `M` at `(n, a, j)`: rotation entry `(a, j)` times `sⱼ`. -/

theorem scaled0_at (n : Fin 8000000) :
    val_main_v75 (F := Ideal) x0 x1 (ix3 n (0 : Fin 3) (0 : Fin 3)) = rs (vecRow x0 x1 n) 0 := by
  unfold vecRow
  rw [rs_mk_0, val_main_v75_apply, reshaped0_at, joined0_at, scale_at, column0_at, entry0_at, Ideal.mulf_def]

theorem scaled1_at (n : Fin 8000000) :
    val_main_v75 (F := Ideal) x0 x1 (ix3 n (0 : Fin 3) (1 : Fin 3)) = rs (vecRow x0 x1 n) 1 := by
  unfold vecRow
  rw [rs_mk_1, val_main_v75_apply, reshaped1_at, joined1_at, scale_at, column1_at, entry1_at, Ideal.mulf_def]

theorem scaled2_at (n : Fin 8000000) :
    val_main_v75 (F := Ideal) x0 x1 (ix3 n (0 : Fin 3) (2 : Fin 3)) = rs (vecRow x0 x1 n) 2 := by
  unfold vecRow
  rw [rs_mk_2, val_main_v75_apply, reshaped2_at, joined2_at, scale_at, column2_at, entry2_at, Ideal.mulf_def]

theorem scaled3_at (n : Fin 8000000) :
    val_main_v75 (F := Ideal) x0 x1 (ix3 n (1 : Fin 3) (0 : Fin 3)) = rs (vecRow x0 x1 n) 3 := by
  unfold vecRow
  rw [rs_mk_3, val_main_v75_apply, reshaped3_at, joined3_at, scale_at, column3_at, entry3_at, Ideal.mulf_def]

theorem scaled4_at (n : Fin 8000000) :
    val_main_v75 (F := Ideal) x0 x1 (ix3 n (1 : Fin 3) (1 : Fin 3)) = rs (vecRow x0 x1 n) 4 := by
  unfold vecRow
  rw [rs_mk_4, val_main_v75_apply, reshaped4_at, joined4_at, scale_at, column4_at, entry4_at, Ideal.mulf_def]

theorem scaled5_at (n : Fin 8000000) :
    val_main_v75 (F := Ideal) x0 x1 (ix3 n (1 : Fin 3) (2 : Fin 3)) = rs (vecRow x0 x1 n) 5 := by
  unfold vecRow
  rw [rs_mk_5, val_main_v75_apply, reshaped5_at, joined5_at, scale_at, column5_at, entry5_at, Ideal.mulf_def]

theorem scaled6_at (n : Fin 8000000) :
    val_main_v75 (F := Ideal) x0 x1 (ix3 n (2 : Fin 3) (0 : Fin 3)) = rs (vecRow x0 x1 n) 6 := by
  unfold vecRow
  rw [rs_mk_6, val_main_v75_apply, reshaped6_at, joined6_at, scale_at, column6_at, entry6_at, Ideal.mulf_def]

theorem scaled7_at (n : Fin 8000000) :
    val_main_v75 (F := Ideal) x0 x1 (ix3 n (2 : Fin 3) (1 : Fin 3)) = rs (vecRow x0 x1 n) 7 := by
  unfold vecRow
  rw [rs_mk_7, val_main_v75_apply, reshaped7_at, joined7_at, scale_at, column7_at, entry7_at, Ideal.mulf_def]

theorem scaled8_at (n : Fin 8000000) :
    val_main_v75 (F := Ideal) x0 x1 (ix3 n (2 : Fin 3) (2 : Fin 3)) = rs (vecRow x0 x1 n) 8 := by
  unfold vecRow
  rw [rs_mk_8, val_main_v75_apply, reshaped8_at, joined8_at, scale_at, column8_at, entry8_at, Ideal.mulf_def]

theorem scaled_at (n : Fin 8000000) (a j : Fin 3) :
    val_main_v75 (F := Ideal) x0 x1 (ix3 n a j) = rs (vecRow x0 x1 n) (3 * a.val + j.val) := by
  match a, j with
  | ⟨0, _⟩, ⟨0, _⟩ => exact scaled0_at x0 x1 n
  | ⟨0, _⟩, ⟨1, _⟩ => exact scaled1_at x0 x1 n
  | ⟨0, _⟩, ⟨2, _⟩ => exact scaled2_at x0 x1 n
  | ⟨1, _⟩, ⟨0, _⟩ => exact scaled3_at x0 x1 n
  | ⟨1, _⟩, ⟨1, _⟩ => exact scaled4_at x0 x1 n
  | ⟨1, _⟩, ⟨2, _⟩ => exact scaled5_at x0 x1 n
  | ⟨2, _⟩, ⟨0, _⟩ => exact scaled6_at x0 x1 n
  | ⟨2, _⟩, ⟨1, _⟩ => exact scaled7_at x0 x1 n
  | ⟨2, _⟩, ⟨2, _⟩ => exact scaled8_at x0 x1 n

/-- The result at `(n, a, b)`: the contraction of row `a` of `M` with row `b`. -/
theorem result_at (n : Fin 8000000) (a b : Fin 3) :
    val_main_v76 (F := Ideal) x0 x1 (ix3 n a b) = covSum (rowDiv x0 x1 n) a b := by
  rw [val_main_v76_apply, ← vecRow_eq]
  unfold covSum
  refine Finset.sum_congr rfl fun k _ => ?_
  have el : lidx_main_v76 (ix3 n a b) k = ix3 n a k :=
    funext fun d => by match d with | ⟨0, _⟩ => rfl | ⟨1, _⟩ => rfl | ⟨2, _⟩ => rfl
  have er : ridx_main_v76 (ix3 n a b) k = ix3 n b k :=
    funext fun d => by match d with | ⟨0, _⟩ => rfl | ⟨1, _⟩ => rfl | ⟨2, _⟩ => rfl
  rw [el, er, scaled_at, scaled_at]

/-- Where quaternion `n` has a positive squared norm, the result at `(n, a, b)` is column `3 a + b` of the
    specification's row: division by the norm is the product with the reciprocal root, the three-term contraction is
    `(· + ·) + ·`, and below the diagonal the products' factors are exchanged. -/
theorem result_eq (n : Fin 8000000) (a b : Fin 3) (h : 0 < sumsq (quat x0 n)) :
    val_main_v76 (F := Ideal) x0 x1 (ix3 n a b) = cov9 (rowOf x0 x1 n) (3 * a.val + b.val) := by
  rw [result_at, rowDiv_eq_rowOf _ _ _ h, covSum_eq_cov9]

end Cert.ReferenceIdeal.RefMatrix

end
-- ==== Proof.Bridge.lean ====
/-
  The two results are one array.  The kernel program's result is the [8000000, 9] array of columns reshaped to
  [8000000, 3, 3]; read at `(n, a, b)` that is column `3 a + b` of Gaussian `n`'s row.  The reference's result at
  `(n, a, b)` is the same column wherever quaternion `n` has a positive squared norm.
-/
import proofs.«150694_j39608188403926_2_alg».proof.Proof.KerRun
import proofs.«150694_j39608188403926_2_alg».proof.Proof.RefMatrix

noncomputable section

namespace Cert.Bridge

open Idealize.ShloMosaic Idealize.ShloMosaic.TcCoe Idealize.ShloMosaic.ValueIdx Cert.Cov

/-- The kernel program's result at `(n, a, b)`: column `3 a + b` of Gaussian `n`'s row. -/
theorem result_apply (A0 : Cert.KernelIdeal.S8000000x4.Idx → EReal) (A1 : Cert.KernelIdeal.S8000000x3.Idx → EReal)
    (n : Fin 8000000) (a b : Fin 3) :
    Cert.KernelIdeal.KerRun.result A0 A1 (ix3 n a b) = cov9 (rowOf A0 A1 n) (3 * a.val + b.val) := by
  have hn := n.isLt; have ha := a.isLt; have hb := b.isLt
  unfold Cert.KernelIdeal.KerRun.result
  refine (shapeCast_apply _ _ (ix3 n a b)
    (ix2 n (⟨3 * a.val + b.val, by omega⟩ : Fin 9)) (by
      rewrite [Shape.rowMajor_val_two, Shape.rowMajor_val_three]
      show n.val * 9 + (3 * a.val + b.val) = (n.val * 3 + a.val) * 3 + b.val
      omega)).trans ?_
  exact covArr9_apply A0 A1 n _

/-- Where every quaternion has a positive squared norm, the reference's result array is the kernel program's. -/
theorem reference_eq_result (A0 : (⟨Cert.ReferenceIdeal.S8000000x4, .f32⟩ : BufTy).Contents (Elt Ideal))
    (A1 : (⟨Cert.ReferenceIdeal.S8000000x3, .f32⟩ : BufTy).Contents (Elt Ideal))
    (hpos : ∀ n : Fin 8000000, 0 < sumsq (quat A0 n)) :
    Cert.ReferenceIdeal.Read.val_main_v76 (F := Ideal) A0 A1 = Cert.KernelIdeal.KerRun.result A0 A1 := by
  funext i
  obtain ⟨n, a, b, rfl⟩ : ∃ (n : Fin 8000000) (a b : Fin 3), i = ix3 n a b := ⟨i 0, i 1, i 2, eq_ix3 i⟩
  rw [Cert.ReferenceIdeal.RefMatrix.result_eq A0 A1 n a b (hpos n), result_apply]

end Cert.Bridge

end
-- ==== Proof.PrePositive.lean ====
/-
  What the precondition gives the proof.  Besides the finiteness of both inputs it states, for every Gaussian, that the
  sum of the squares of its quaternion's components (accumulated onto the zero word) is greater than zero: read on the
  extended reals, every quaternion has a positive squared norm.  Only this conjunct is used.
-/
import proofs.«150694_j39608188403926_2_alg».proof.Pre_finite_inputs
import proofs.«150694_j39608188403926_2_alg».proof.Proof.Gen.Pre_finite_inputs
import proofs.«150694_j39608188403926_2_alg».proof.Proof.CovSpec
import Idealize.ShloMosaic.Lib.ReduceAll
import Idealize.ShloMosaic.Lib.IdealHost
import Idealize.ShloMosaic.Lib.Affine
import Idealize.ShloMosaic.Lib.Pipeline.Value
import Idealize.ShloMosaic.Lib.ValueIdx
import Idealize.ShloMosaic.PureOps.Ideal.Laws

noncomputable section

namespace Cert.Pre_finite_inputs.Positive

open Cert.Pre_finite_inputs Cert.Pre_finite_inputs.Facts Idealize.ShloMosaic Idealize.ShloMosaic.ValueIdx Cert.Cov

variable [Facts]

instance : Subsingleton S_.Idx := ⟨fun a b => funext fun d => d.elim0⟩

/-- A comparison `x > y` that answers 1 is the strict order. -/
theorem lt_of_cmp_ogt (x y : EReal) (h : Ideal.cmp .ogt x y = 1#1) : y < x := by
  by_contra hn
  have e : Ideal.cmp .ogt x y = 0#1 := by simp [Ideal.cmp, hn]
  rw [e] at h
  exact absurd h (by decide)

/-- The host's sum over the second axis at row `n`: the initial value plus the sum over the four columns. -/
theorem rowsum_apply (y0 : FVec Ideal S8000000x4 .f32) (init : FVec Ideal S_ .f32) (n : Fin 8000000) :
    Host.reduceAdd y0 init reducesTo_S8000000x4_S8000000_d1 h_S_ (ix1 n)
      = init (Shape.Idx.first h_S_) + ∑ k : Fin 4, y0 (ix2 n k) := by
  simp only [Host.reduceAdd, Ideal.hostReduceAdd_def]
  rw [Ideal.hostReduceAdd_single reducesTo_S8000000x4_S8000000_d1 (by decide)]
  refine congrArg (_ + ·) (Finset.sum_congr rfl fun k _ => ?_)
  exact congrArg y0 (funext fun a => Fin.ext (by match a with | ⟨0, _⟩ => rfl | ⟨1, _⟩ => rfl))

/-- Under the precondition every quaternion has a positive squared norm. -/
theorem sumsq_pos (A0 : FVec Ideal S8000000x4 .f32) (A1 : FVec Ideal S8000000x3 .f32)
    (h : fn (F := Ideal) A0 A1 = fun _ => 1#1) (n : Fin 8000000) : 0 < sumsq (quat A0 n) := by
  have h1 := congrFun h ix0
  dsimp only [fn] at h1
  obtain ⟨-, h13⟩ := IntOp.andi_eq_one.1 h1
  have hn := Host.reduce_andi_all _ _ reducesTo_S8000000_S_d0 h_S_ ix0 h13 (ix1 n)
  rw [cmpf_apply, rowsum_apply, broadcastInDim_scalar_apply, constant_apply, constant_apply, Ideal.ofBits_zero_f32,
    zero_add, Ideal.cmpf_def] at hn
  have hlt := lt_of_cmp_ogt _ _ hn
  have e : ∑ k : Fin 4, mulf A0 A0 (ix2 n k) = ∑ k : Fin 4, A0 (ix2 n k) * A0 (ix2 n k) :=
    Finset.sum_congr rfl fun k _ => mulf_apply A0 A0 (ix2 n k)
  rw [e] at hlt
  exact hlt

end Cert.Pre_finite_inputs.Positive

end
-- ==== Proof.lean ====
/-
  Covariances of 8,000,000 Gaussians: from a quaternion array [N, 4] and a scale array [N, 3] the array [N, 3, 3] of
  `(R S)(R S)ᵀ`, `R` the rotation matrix of the normalized quaternion and `S = diag(scale)`.

  The kernel program walks the Gaussians in 4000 blocks of 2000: it multiplies each quaternion by the reciprocal root of
  its squared norm, forms the nine entries of `M = R S` and the six distinct entries of `M Mᵀ`, stores them as nine
  columns (the lower triangle a copy of the upper), and finally reshapes [N, 9] to [N, 3, 3].  The reference divides
  each quaternion by its norm, forms the same nine entries of `R`, scales the columns, and contracts `M` with itself.
  On the extended reals the two agree entry by entry wherever a quaternion's squared norm is positive — division by the
  root is then the product with the reciprocal root, a three-term contraction is `(a + b) + c`, and the mirrored
  entries differ by the order of two factors — and the precondition says exactly that of every quaternion (at a zero
  quaternion the two differ: `0 · ⊤ = 0` against `0 / 0`).  Nothing else of the precondition is used: no step needs
  distributivity or cancellation, so the finiteness of the inputs plays no part.

  The three frames are the programs' own runs with the results forgotten; the idealization changed no operation, so
  `preserves` has nothing to state.
-/
import proofs.«150694_j39608188403926_2_alg».proof.Defs
import proofs.«150694_j39608188403926_2_alg».proof.Proof.Gen.Kernel
import proofs.«150694_j39608188403926_2_alg».proof.Proof.Gen.Kernel.Skeleton
import proofs.«150694_j39608188403926_2_alg».proof.Proof.Gen.Kernel.Launch
import proofs.«150694_j39608188403926_2_alg».proof.Proof.Gen.Kernel.Points
import proofs.«150694_j39608188403926_2_alg».proof.Proof.Gen.Kernel.Frame
import proofs.«150694_j39608188403926_2_alg».proof.Proof.Gen.KernelIdeal
import proofs.«150694_j39608188403926_2_alg».proof.Proof.Gen.KernelIdeal.Skeleton
import proofs.«150694_j39608188403926_2_alg».proof.Proof.Gen.KernelIdeal.Launch
import proofs.«150694_j39608188403926_2_alg».proof.Proof.Gen.KernelIdeal.Points
import proofs.«150694_j39608188403926_2_alg».proof.Proof.Gen.KernelIdeal.Frame
import proofs.«150694_j39608188403926_2_alg».proof.Proof.Gen.ReferenceIdeal
import proofs.«150694_j39608188403926_2_alg».proof.Proof.Gen.ReferenceIdeal.Run
import proofs.«150694_j39608188403926_2_alg».proof.Proof.Gen.ReferenceIdeal.Read
import proofs.«150694_j39608188403926_2_alg».proof.Proof.Gen.Pre_finite_inputs
import Idealize.ShloMosaic.Adequacy
import Idealize.ShloMosaic.Init

import proofs.«150694_j39608188403926_2_alg».proof.Proof.Bridge
import proofs.«150694_j39608188403926_2_alg».proof.Proof.PrePositive

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array at the nine columns of every Gaussian, reshaped to 3×3: the kernel program
    by its run, the reference by its run and, every quaternion having a positive squared norm, the entry-by-entry
    equality of the two arrays. -/
theorem algebraic : Cert.algebraic_KernelIdeal_ReferenceIdeal := by
  intro m ρ m' ρ' hpre hagree
  refine ⟨fun c => Cert.KernelIdeal.KerRun.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KerRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v76_eq, (hagree c).1, (hagree c).2]
  exact Cert.Bridge.reference_eq_result _ _ (Cert.Pre_finite_inputs.Positive.sumsq_pos _ _ (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
